-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x28x28 : Shape := ⟨4, ![4, 64, 28, 28]⟩
abbrev S64x64x3x3 : Shape := ⟨4, ![64, 64, 3, 3]⟩
abbrev S_ : Shape := ⟨0, ![]⟩

class Facts : Prop where
  bcast_S_S4x64x28x28 : S_.BroadcastsInDim S4x64x28x28 (![] : Fin 0 → Fin S4x64x28x28.rank)
  reducesTo_S4x64x28x28_S_d0_1_2_3 : S4x64x28x28.ReducesTo [0, 1, 2, 3] S_
  h_S_ : 0 < S_.numel
  bcast_S_S64x64x3x3 : S_.BroadcastsInDim S64x64x3x3 (![] : Fin 0 → Fin S64x64x3x3.rank)
  reducesTo_S64x64x3x3_S_d0_1_2_3 : S64x64x3x3.ReducesTo [0, 1, 2, 3] S_

variable [Facts]

def fn {F : FTy → Type} [FloatOps F] (main_arg0 : FVec F S4x64x28x28 .f32) (main_arg1 : FVec F S64x64x3x3 .f32) : IVec S_ 1 :=
  let main_v0 : FVec F S4x64x28x28 .f32 := Host.absf main_arg0
  let main_cst : FVec F S_ .f32 := constant S_ .f32 0x7F800000#32
  let main_v1 : FVec F S4x64x28x28 .f32 := broadcastInDim S4x64x28x28 ![] bcast_S_S4x64x28x28 main_cst
  let main_v2 : IVec S4x64x28x28 1 := cmpf .olt main_v0 main_v1
  let main_c : IVec S_ 1 := constantI S_ 1 1#1
  let main_v3 : IVec S_ 1 := (fun x v => Host.reduce IntOp.andi x v reducesTo_S4x64x28x28_S_d0_1_2_3 h_S_) main_v2 main_c
  let main_v4 : FVec F S64x64x3x3 .f32 := Host.absf main_arg1
  let main_cst_0 : FVec F S_ .f32 := constant S_ .f32 0x7F800000#32
  let main_v5 : FVec F S64x64x3x3 .f32 := broadcastInDim S64x64x3x3 ![] bcast_S_S64x64x3x3 main_cst_0
  let main_v6 : IVec S64x64x3x3 1 := cmpf .olt main_v4 main_v5
  let main_c_1 : IVec S_ 1 := constantI S_ 1 1#1
  let main_v7 : IVec S_ 1 := (fun x v => Host.reduce IntOp.andi x v reducesTo_S64x64x3x3_S_d0_1_2_3 h_S_) main_v6 main_c_1
  let main_v8 : IVec S_ 1 := andi main_v3 main_v7
  main_v8
-- ==== Kernel.lean ====
abbrev S4x64x28x28 : Shape := ⟨4, ![4, 64, 28, 28]⟩
abbrev S64x64x3x3 : Shape := ⟨4, ![64, 64, 3, 3]⟩
abbrev S_ : Shape := ⟨0, ![]⟩
abbrev S64 : Shape := ⟨1, ![64]⟩
abbrev S64x1x1x1 : Shape := ⟨4, ![64, 1, 1, 1]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S576x784x4 : Shape := ⟨3, ![576, 784, 4]⟩
abbrev S576x3136 : Shape := ⟨2, ![576, 3136]⟩
abbrev S64x576 : Shape := ⟨2, ![64, 576]⟩
abbrev S576x64 : Shape := ⟨2, ![576, 64]⟩
abbrev S576x3200 : Shape := ⟨2, ![576, 3200]⟩
abbrev S64x3200 : Shape := ⟨2, ![64, 3200]⟩
abbrev S576x640 : Shape := ⟨2, ![576, 640]⟩
abbrev S64x640 : Shape := ⟨2, ![64, 640]⟩
abbrev S64x64 : Shape := ⟨2, ![64, 64]⟩
abbrev S64x64x1 : Shape := ⟨3, ![64, 64, 1]⟩
abbrev S64x1x640 : Shape := ⟨3, ![64, 1, 640]⟩
abbrev S64x64x640 : Shape := ⟨3, ![64, 64, 640]⟩
abbrev S64x3136 : Shape := ⟨2, ![64, 3136]⟩
abbrev S64x28x28x4 : Shape := ⟨4, ![64, 28, 28, 4]⟩

abbrev nBuf : Space → Nat
  | .hbm => 102
  | .vmem => 5
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x64x28x28, .f32⟩
  | .hbm, ⟨15, _⟩ => ⟨S4x64x28x28, .f32⟩
  | .hbm, ⟨16, _⟩ => ⟨S4x64x28x28, .f32⟩
  | .hbm, ⟨17, _⟩ => ⟨S4x64x28x28, .f32⟩
  | .hbm, ⟨18, _⟩ => ⟨S4x64x28x28, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x64x28x28, .f32⟩
  | .hbm, ⟨23, _⟩ => ⟨S4x64x28x28, .f32⟩
  | .hbm, ⟨24, _⟩ => ⟨S_, .f32⟩
  | .hbm, ⟨25, _⟩ => ⟨S4x64x28x28, .f32⟩
  | .hbm, ⟨26, _⟩ => ⟨S4x64x28x28, .f32⟩
  | .hbm, ⟨27, _⟩ => ⟨S4x64x28x28, .f32⟩
  | .hbm, ⟨28, _⟩ => ⟨S4x64x28x28, .f32⟩
  | .hbm, ⟨29, _⟩ => ⟨S4x64x28x28, .f32⟩
  | .hbm, ⟨30, _⟩ => ⟨S4x64x28x28, .f32⟩
  | .hbm, ⟨31, _⟩ => ⟨S4x64x28x28, .f32⟩
  | .hbm, ⟨32, _⟩ => ⟨S4x64x28x28, .f32⟩
  | .hbm, ⟨33, _⟩ => ⟨S_, .f32⟩
  | .hbm, ⟨34, _⟩ => ⟨S64, .f32⟩
  | .hbm, ⟨35, _⟩ => ⟨S64x1x1x1, .f32⟩
  | .hbm, ⟨36, _⟩ => ⟨S_, .f32⟩
  | .hbm, ⟨37, _⟩ => ⟨S64, .f32⟩
  | .hbm, ⟨38, _⟩ => ⟨S64x1x1x1, .f32⟩
  | .hbm, ⟨39, _⟩ => ⟨S64x1x1x1, .f32⟩
  | .hbm, ⟨40, _⟩ => ⟨S_, .f32⟩
  | .hbm, ⟨41, _⟩ => ⟨S64x1x1x1, .f32⟩
  | .hbm, ⟨42, _⟩ => ⟨S64x1x1x1, .f32⟩
  | .hbm, ⟨43, _⟩ => ⟨S_, .f32⟩
  | .hbm, ⟨44, _⟩ => ⟨S64x1x1x1, .f32⟩
  | .hbm, ⟨45, _⟩ => ⟨S64x1x1x1, .f32⟩
  | .hbm, ⟨46, _⟩ => ⟨S64x1x1x1, .f32⟩
  | .hbm, ⟨47, _⟩ => ⟨S64x1x1x1, .f32⟩
  | .hbm, ⟨48, _⟩ => ⟨S64x1x1x1, .f32⟩
  | .hbm, ⟨49, _⟩ => ⟨S64x64x3x3, .f32⟩
  | .hbm, ⟨50, _⟩ => ⟨S64x64x3x3, .f32⟩
  | .hbm, ⟨51, _⟩ => ⟨S64x64x3x3, .f32⟩
  | .hbm, ⟨52, _⟩ => ⟨S64x64x3x3, .f32⟩
  | .hbm, ⟨53, _⟩ => ⟨S64x64x3x3, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64x64x3x3, .f32⟩
  | .hbm, ⟨58, _⟩ => ⟨S64x64x3x3, .f32⟩
  | .hbm, ⟨59, _⟩ => ⟨S_, .f32⟩
  | .hbm, ⟨60, _⟩ => ⟨S64x64x3x3, .f32⟩
  | .hbm, ⟨61, _⟩ => ⟨S64x64x3x3, .f32⟩
  | .hbm, ⟨62, _⟩ => ⟨S64x64x3x3, .f32⟩
  | .hbm, ⟨63, _⟩ => ⟨S64x64x3x3, .f32⟩
  | .hbm, ⟨64, _⟩ => ⟨S64x64x3x3, .f32⟩
  | .hbm, ⟨65, _⟩ => ⟨S64x64x3x3, .f32⟩
  | .hbm, ⟨66, _⟩ => ⟨S64x64x3x3, .f32⟩
  | .hbm, ⟨67, _⟩ => ⟨S64x64x3x3, .f32⟩
  | .hbm, ⟨68, _⟩ => ⟨S_, .i32⟩
  | .hbm, ⟨69, _⟩ => ⟨S_, .f32⟩
  | .hbm, ⟨70, _⟩ => ⟨S4x64x30x30, .f32⟩
  | .hbm, ⟨71, _⟩ => ⟨S4x64x28x28, .f32⟩
  | .hbm, ⟨72, _⟩ => ⟨S4x64x28x28, .f32⟩
  | .hbm, ⟨73, _⟩ => ⟨S4x64x28x28, .f32⟩
  | .hbm, ⟨74, _⟩ => ⟨S4x64x28x28, .f32⟩
  | .hbm, ⟨75, _⟩ => ⟨S4x64x28x28, .f32⟩
  | .hbm, ⟨76, _⟩ => ⟨S4x64x28x28, .f32⟩
  | .hbm, ⟨77, _⟩ => ⟨S4x64x28x28, .f32⟩
  | .hbm, ⟨78, _⟩ => ⟨S4x64x28x28, .f32⟩
  | .hbm, ⟨79, _⟩ => ⟨S4x64x28x28, .f32⟩
  | .hbm, ⟨80, _⟩ => ⟨S4x64x1x28x28, .f32⟩
  | .hbm, ⟨81, _⟩ => ⟨S4x64x1x28x28, .f32⟩
  | .hbm, ⟨82, _⟩ => ⟨S4x64x1x28x28, .f32⟩
  | .hbm, ⟨83, _⟩ => ⟨S4x64x1x28x28, .f32⟩
  | .hbm, ⟨84, _⟩ => ⟨S4x64x1x28x28, .f32⟩
  | .hbm, ⟨85, _⟩ => ⟨S4x64x1x28x28, .f32⟩
  | .hbm, ⟨86, _⟩ => ⟨S4x64x1x28x28, .f32⟩
  | .hbm, ⟨87, _⟩ => ⟨S4x64x1x28x28, .f32⟩
  | .hbm, ⟨88, _⟩ => ⟨S4x64x1x28x28, .f32⟩
  | .hbm, ⟨89, _⟩ => ⟨S4x64x9x28x28, .f32⟩
  | .hbm, ⟨90, _⟩ => ⟨S4x576x784, .f32⟩
  | .hbm, ⟨91, _⟩ => ⟨S576x784x4, .f32⟩
  | .hbm, ⟨92, _⟩ => ⟨S576x3136, .f32⟩
  | .hbm, ⟨93, _⟩ => ⟨S64x576, .f32⟩
  | .hbm, ⟨94, _⟩ => ⟨S576x64, .f32⟩
  | .hbm, ⟨95, _⟩ => ⟨S_, .i32⟩
  | .hbm, ⟨96, _⟩ => ⟨S_, .f32⟩
  | .hbm, ⟨97, _⟩ => ⟨S576x3200, .f32⟩
  | .hbm, ⟨98, _⟩ => ⟨S64x3200, .f32⟩
  | .hbm, ⟨99, _⟩ => ⟨S64x3136, .f32⟩
  | .hbm, ⟨100, _⟩ => ⟨S64x28x28x4, .f32⟩
  | .hbm, ⟨101, _⟩ => ⟨S4x64x28x28, .f32⟩
  | .local _ .vmem, ⟨0, _⟩ => ⟨S576x64, .f32⟩
  | .local _ .vmem, ⟨1, _⟩ => ⟨S576x640, .f32⟩
  | .local _ .vmem, ⟨2, _⟩ => ⟨S576x640, .f32⟩
  | .local _ .vmem, ⟨3, _⟩ => ⟨S64x640, .f32⟩
  | .local _ .vmem, ⟨4, _⟩ => ⟨S64x640, .f32⟩
  | _, _ => ⟨S4x64x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_cst_10 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c : Ref sig .tc := ⟨.hbm, 68, rfl⟩
abbrev main_call6_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_11 : Ref sig .tc := ⟨.hbm, 95, rfl⟩
abbrev main_call7_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S576x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S576x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4x64x28x28_S_d0_1_2_3 : S4x64x28x28.ReducesTo [0, 1, 2, 3] S_
  h_S_ : 0 < S_.numel
  bcast_S_S4x64x28x28 : S_.BroadcastsInDim S4x64x28x28 (![] : Fin 0 → Fin S4x64x28x28.rank)
  reducesTo_S64x64x3x3_S64_d1_2_3 : S64x64x3x3.ReducesTo [1, 2, 3] S64
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x64x3x3_0_1_2_3 : S64x1x1x1.BroadcastsInDim S64x64x3x3 (![0, 1, 2, 3] : Fin 4 → Fin S64x64x3x3.rank)
  bcast_S_S64x64x3x3 : S_.BroadcastsInDim S64x64x3x3 (![] : Fin 0 → Fin S64x64x3x3.rank)
  pads_S4x64x28x28_S4x64x30x30_000_000_110_110 : S4x64x28x28.Pads (![0, 0, 1, 1] : Fin 4 → Nat) ![0, 0, 1, 1] ![0, 0, 0, 0] S4x64x30x30
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x784 : S4x64x9x28x28.ShapeCasts S4x576x784
  transposes_S4x576x784_S576x784x4_1_2_0 : S4x576x784.Transposes [1, 2, 0] S576x784x4
  shapeCasts_S576x784x4_S576x3136 : S576x784x4.ShapeCasts S576x3136
  shapeCasts_S64x64x3x3_S64x576 : S64x64x3x3.ShapeCasts S64x576
  transposes_S64x576_S576x64_1_0 : S64x576.Transposes [1, 0] S576x64
  pads_S576x3136_S576x3200_000_0640 : S576x3136.Pads (![0, 0] : Fin 2 → Nat) ![0, 64] ![0, 0] S576x3200
  inb_S576x64_S64x64_0_0 : ∀ a, (![0, 0] : Fin 2 → Nat) a + S64x64.size a ≤ S576x64.size a
  h_S64x64 : 0 < S64x64.numel
  shapeCasts_S64x64_S64x64 : S64x64.ShapeCasts S64x64
  inb_S576x640_S64x640_0_0 : ∀ a, (![0, 0] : Fin 2 → Nat) a + S64x640.size a ≤ S576x640.size a
  h_S64x640 : 0 < S64x640.numel
  shapeCasts_S64x640_S64x640 : S64x640.ShapeCasts S64x640
  shapeCasts_S64x64_S64x64x1 : S64x64.ShapeCasts S64x64x1
  shapeCasts_S64x640_S64x1x640 : S64x640.ShapeCasts S64x1x640
  broadcasts_S64x64x1_S64x64x640 : S64x64x1.Broadcasts S64x64x640
  broadcasts_S64x1x640_S64x64x640 : S64x1x640.Broadcasts S64x64x640
  reduces_S64x64x640_S64x640 : S64x64x640.Reduces [0] S64x640
  inb_S576x64_S64x64_64_0 : ∀ a, (![64, 0] : Fin 2 → Nat) a + S64x64.size a ≤ S576x64.size a
  inb_S576x640_S64x640_64_0 : ∀ a, (![64, 0] : Fin 2 → Nat) a + S64x640.size a ≤ S576x640.size a
  inb_S576x64_S64x64_128_0 : ∀ a, (![128, 0] : Fin 2 → Nat) a + S64x64.size a ≤ S576x64.size a
  inb_S576x640_S64x640_128_0 : ∀ a, (![128, 0] : Fin 2 → Nat) a + S64x640.size a ≤ S576x640.size a
  inb_S576x64_S64x64_192_0 : ∀ a, (![192, 0] : Fin 2 → Nat) a + S64x64.size a ≤ S576x64.size a
  inb_S576x640_S64x640_192_0 : ∀ a, (![192, 0] : Fin 2 → Nat) a + S64x640.size a ≤ S576x640.size a
  inb_S576x64_S64x64_256_0 : ∀ a, (![256, 0] : Fin 2 → Nat) a + S64x64.size a ≤ S576x64.size a
  inb_S576x640_S64x640_256_0 : ∀ a, (![256, 0] : Fin 2 → Nat) a + S64x640.size a ≤ S576x640.size a
  inb_S576x64_S64x64_320_0 : ∀ a, (![320, 0] : Fin 2 → Nat) a + S64x64.size a ≤ S576x64.size a
  inb_S576x640_S64x640_320_0 : ∀ a, (![320, 0] : Fin 2 → Nat) a + S64x640.size a ≤ S576x640.size a
  inb_S576x64_S64x64_384_0 : ∀ a, (![384, 0] : Fin 2 → Nat) a + S64x64.size a ≤ S576x64.size a
  inb_S576x640_S64x640_384_0 : ∀ a, (![384, 0] : Fin 2 → Nat) a + S64x640.size a ≤ S576x640.size a
  inb_S576x64_S64x64_448_0 : ∀ a, (![448, 0] : Fin 2 → Nat) a + S64x64.size a ≤ S576x64.size a
  inb_S576x640_S64x640_448_0 : ∀ a, (![448, 0] : Fin 2 → Nat) a + S64x640.size a ≤ S576x640.size a
  inb_S576x64_S64x64_512_0 : ∀ a, (![512, 0] : Fin 2 → Nat) a + S64x64.size a ≤ S576x64.size a
  inb_S576x640_S64x640_512_0 : ∀ a, (![512, 0] : Fin 2 → Nat) a + S64x640.size a ≤ S576x640.size a
  inb_S64x640_S64x640_0_0 : ∀ a, (![0, 0] : Fin 2 → Nat) a + S64x640.size a ≤ S64x640.size a
  slices_S64x3200_S64x3136_0_0 : S64x3200.Slices ![0, 0] S64x3136
  shapeCasts_S64x3136_S64x28x28x4 : S64x3136.ShapeCasts S64x28x28x4
  transposes_S64x28x28x4_S4x64x28x28_3_0_1_2 : S64x28x28x4.Transposes [3, 0, 1, 2] S4x64x28x28
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S576x64.size a ≤ S576x64.size a
  hwx0_0 : ∀ i : grid0.Coords, EltTy.bits .f32 = 32 ∨ (Rect.block (s := S576x64) S576x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S576x640.size a ≤ S576x3200.size a
  hwx0_1 : ∀ i : grid0.Coords, EltTy.bits .f32 = 32 ∨ (Rect.block (s := S576x3200) S576x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x640.size a ≤ S64x3200.size a
  hwx0_2 : ∀ i : grid0.Coords, EltTy.bits .f32 = 32 ∨ (Rect.block (s := S64x3200) S64x640.size (cc0_transform_2 i) (hinb0_2 i)).WholeWords (EltTy.packing .f32)

variable [Facts₀]

abbrev win0_0 : Pipeline.Window sig grid0 :=
  Pipeline.Window.ofSpec (Memref.whole main_v68) S576x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v69) S576x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v70) S64x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x28x28 : Shape := ⟨4, ![4, 64, 28, 28]⟩
abbrev S64x64x3x3 : Shape := ⟨4, ![64, 64, 3, 3]⟩
abbrev S_ : Shape := ⟨0, ![]⟩
abbrev S64 : Shape := ⟨1, ![64]⟩
abbrev S64x1x1x1 : Shape := ⟨4, ![64, 1, 1, 1]⟩
abbrev S4x64x30x30 : Shape := ⟨4, ![4, 64, 30, 30]⟩
abbrev S4x64x1x28x28 : Shape := ⟨5, ![4, 64, 1, 28, 28]⟩
abbrev S4x64x9x28x28 : Shape := ⟨5, ![4, 64, 9, 28, 28]⟩
abbrev S4x576x784 : Shape := ⟨3, ![4, 576, 784]⟩
abbrev S576x784x4 : Shape := ⟨3, ![576, 784, 4]⟩
abbrev S576x3136 : Shape := ⟨2, ![576, 3136]⟩
abbrev S64x576 : Shape := ⟨2, ![64, 576]⟩
abbrev S64x576x1 : Shape := ⟨3, ![64, 576, 1]⟩
abbrev S1x576x3136 : Shape := ⟨3, ![1, 576, 3136]⟩
abbrev S64x576x3136 : Shape := ⟨3, ![64, 576, 3136]⟩
abbrev S64x3136 : Shape := ⟨2, ![64, 3136]⟩
abbrev S64x28x28x4 : Shape := ⟨4, ![64, 28, 28, 4]⟩

abbrev nBuf : Space → Nat
  | .hbm => 105
  | .vmem => 0
  | .smem => 0
  | _ => 0

abbrev bufTy : (tb : Table) → Fin (tcTables nBuf tb) → BufTy
  | .hbm, ⟨0, _⟩ => ⟨S4x64x28x28, .f32⟩
  | .hbm, ⟨1, _⟩ => ⟨S64x64x3x3, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4x64x28x28, .f32⟩
  | .hbm, ⟨15, _⟩ => ⟨S4x64x28x28, .f32⟩
  | .hbm, ⟨16, _⟩ => ⟨S4x64x28x28, .f32⟩
  | .hbm, ⟨17, _⟩ => ⟨S4x64x28x28, .f32⟩
  | .hbm, ⟨18, _⟩ => ⟨S4x64x28x28, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x64x28x28, .f32⟩
  | .hbm, ⟨23, _⟩ => ⟨S4x64x28x28, .f32⟩
  | .hbm, ⟨24, _⟩ => ⟨S_, .f32⟩
  | .hbm, ⟨25, _⟩ => ⟨S4x64x28x28, .f32⟩
  | .hbm, ⟨26, _⟩ => ⟨S4x64x28x28, .f32⟩
  | .hbm, ⟨27, _⟩ => ⟨S4x64x28x28, .f32⟩
  | .hbm, ⟨28, _⟩ => ⟨S4x64x28x28, .f32⟩
  | .hbm, ⟨29, _⟩ => ⟨S4x64x28x28, .f32⟩
  | .hbm, ⟨30, _⟩ => ⟨S4x64x28x28, .f32⟩
  | .hbm, ⟨31, _⟩ => ⟨S4x64x28x28, .f32⟩
  | .hbm, ⟨32, _⟩ => ⟨S4x64x28x28, .f32⟩
  | .hbm, ⟨33, _⟩ => ⟨S_, .f32⟩
  | .hbm, ⟨34, _⟩ => ⟨S64, .f32⟩
  | .hbm, ⟨35, _⟩ => ⟨S64x1x1x1, .f32⟩
  | .hbm, ⟨36, _⟩ => ⟨S_, .f32⟩
  | .hbm, ⟨37, _⟩ => ⟨S64, .f32⟩
  | .hbm, ⟨38, _⟩ => ⟨S64x1x1x1, .f32⟩
  | .hbm, ⟨39, _⟩ => ⟨S64x1x1x1, .f32⟩
  | .hbm, ⟨40, _⟩ => ⟨S_, .f32⟩
  | .hbm, ⟨41, _⟩ => ⟨S64x1x1x1, .f32⟩
  | .hbm, ⟨42, _⟩ => ⟨S64x1x1x1, .f32⟩
  | .hbm, ⟨43, _⟩ => ⟨S_, .f32⟩
  | .hbm, ⟨44, _⟩ => ⟨S64x1x1x1, .f32⟩
  | .hbm, ⟨45, _⟩ => ⟨S64x1x1x1, .f32⟩
  | .hbm, ⟨46, _⟩ => ⟨S64x1x1x1, .f32⟩
  | .hbm, ⟨47, _⟩ => ⟨S64x1x1x1, .f32⟩
  | .hbm, ⟨48, _⟩ => ⟨S64x1x1x1, .f32⟩
  | .hbm, ⟨49, _⟩ => ⟨S64x64x3x3, .f32⟩
  | .hbm, ⟨50, _⟩ => ⟨S64x64x3x3, .f32⟩
  | .hbm, ⟨51, _⟩ => ⟨S64x64x3x3, .f32⟩
  | .hbm, ⟨52, _⟩ => ⟨S64x64x3x3, .f32⟩
  | .hbm, ⟨53, _⟩ => ⟨S64x64x3x3, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64x64x3x3, .f32⟩
  | .hbm, ⟨58, _⟩ => ⟨S64x64x3x3, .f32⟩
  | .hbm, ⟨59, _⟩ => ⟨S_, .f32⟩
  | .hbm, ⟨60, _⟩ => ⟨S64x64x3x3, .f32⟩
  | .hbm, ⟨61, _⟩ => ⟨S64x64x3x3, .f32⟩
  | .hbm, ⟨62, _⟩ => ⟨S64x64x3x3, .f32⟩
  | .hbm, ⟨63, _⟩ => ⟨S64x64x3x3, .f32⟩
  | .hbm, ⟨64, _⟩ => ⟨S64x64x3x3, .f32⟩
  | .hbm, ⟨65, _⟩ => ⟨S64x64x3x3, .f32⟩
  | .hbm, ⟨66, _⟩ => ⟨S64x64x3x3, .f32⟩
  | .hbm, ⟨67, _⟩ => ⟨S64x64x3x3, .f32⟩
  | .hbm, ⟨68, _⟩ => ⟨S_, .i32⟩
  | .hbm, ⟨69, _⟩ => ⟨S_, .f32⟩
  | .hbm, ⟨70, _⟩ => ⟨S4x64x30x30, .f32⟩
  | .hbm, ⟨71, _⟩ => ⟨S4x64x28x28, .f32⟩
  | .hbm, ⟨72, _⟩ => ⟨S4x64x28x28, .f32⟩
  | .hbm, ⟨73, _⟩ => ⟨S4x64x28x28, .f32⟩
  | .hbm, ⟨74, _⟩ => ⟨S4x64x28x28, .f32⟩
  | .hbm, ⟨75, _⟩ => ⟨S4x64x28x28, .f32⟩
  | .hbm, ⟨76, _⟩ => ⟨S4x64x28x28, .f32⟩
  | .hbm, ⟨77, _⟩ => ⟨S4x64x28x28, .f32⟩
  | .hbm, ⟨78, _⟩ => ⟨S4x64x28x28, .f32⟩
  | .hbm, ⟨79, _⟩ => ⟨S4x64x28x28, .f32⟩
  | .hbm, ⟨80, _⟩ => ⟨S4x64x1x28x28, .f32⟩
  | .hbm, ⟨81, _⟩ => ⟨S4x64x1x28x28, .f32⟩
  | .hbm, ⟨82, _⟩ => ⟨S4x64x1x28x28, .f32⟩
  | .hbm, ⟨83, _⟩ => ⟨S4x64x1x28x28, .f32⟩
  | .hbm, ⟨84, _⟩ => ⟨S4x64x1x28x28, .f32⟩
  | .hbm, ⟨85, _⟩ => ⟨S4x64x1x28x28, .f32⟩
  | .hbm, ⟨86, _⟩ => ⟨S4x64x1x28x28, .f32⟩
  | .hbm, ⟨87, _⟩ => ⟨S4x64x1x28x28, .f32⟩
  | .hbm, ⟨88, _⟩ => ⟨S4x64x1x28x28, .f32⟩
  | .hbm, ⟨89, _⟩ => ⟨S4x64x9x28x28, .f32⟩
  | .hbm, ⟨90, _⟩ => ⟨S4x576x784, .f32⟩
  | .hbm, ⟨91, _⟩ => ⟨S576x784x4, .f32⟩
  | .hbm, ⟨92, _⟩ => ⟨S576x3136, .f32⟩
  | .hbm, ⟨93, _⟩ => ⟨S64x576, .f32⟩
  | .hbm, ⟨94, _⟩ => ⟨S64x576x1, .f32⟩
  | .hbm, ⟨95, _⟩ => ⟨S1x576x3136, .f32⟩
  | .hbm, ⟨96, _⟩ => ⟨S64x576x3136, .f32⟩
  | .hbm, ⟨97, _⟩ => ⟨S64x576x3136, .f32⟩
  | .hbm, ⟨98, _⟩ => ⟨S64x576x3136, .f32⟩
  | .hbm, ⟨99, _⟩ => ⟨S64x576x3136, .f32⟩
  | .hbm, ⟨100, _⟩ => ⟨S_, .f32⟩
  | .hbm, ⟨101, _⟩ => ⟨S64x3136, .f32⟩
  | .hbm, ⟨102, _⟩ => ⟨S64x3136, .f32⟩
  | .hbm, ⟨103, _⟩ => ⟨S64x28x28x4, .f32⟩
  | .hbm, ⟨104, _⟩ => ⟨S4x64x28x28, .f32⟩
  | _, _ => ⟨S4x64x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_cst_10 : Ref sig .tc := ⟨.hbm, 55, rfl⟩
abbrev main_call5_v0 : Ref sig .tc := ⟨.hbm, 56, rfl⟩
abbrev main_call5_v1 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c : Ref sig .tc := ⟨.hbm, 68, rfl⟩
abbrev main_call6_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  reducesTo_S4x64x28x28_S_d0_1_2_3 : S4x64x28x28.ReducesTo [0, 1, 2, 3] S_
  h_S_ : 0 < S_.numel
  bcast_S_S4x64x28x28 : S_.BroadcastsInDim S4x64x28x28 (![] : Fin 0 → Fin S4x64x28x28.rank)
  reducesTo_S64x64x3x3_S64_d1_2_3 : S64x64x3x3.ReducesTo [1, 2, 3] S64
  bcast_S64_S64x1x1x1_0 : S64.BroadcastsInDim S64x1x1x1 (![0] : Fin 1 → Fin S64x1x1x1.rank)
  bcast_S_S64x1x1x1 : S_.BroadcastsInDim S64x1x1x1 (![] : Fin 0 → Fin S64x1x1x1.rank)
  bcast_S64x1x1x1_S64x64x3x3_0_1_2_3 : S64x1x1x1.BroadcastsInDim S64x64x3x3 (![0, 1, 2, 3] : Fin 4 → Fin S64x64x3x3.rank)
  bcast_S_S64x64x3x3 : S_.BroadcastsInDim S64x64x3x3 (![] : Fin 0 → Fin S64x64x3x3.rank)
  pads_S4x64x28x28_S4x64x30x30_000_000_110_110 : S4x64x28x28.Pads (![0, 0, 1, 1] : Fin 4 → Nat) ![0, 0, 1, 1] ![0, 0, 0, 0] S4x64x30x30
  slices_S4x64x30x30_S4x64x28x28_0_0_0_0 : S4x64x30x30.Slices ![0, 0, 0, 0] S4x64x28x28
  slices_S4x64x30x30_S4x64x28x28_0_0_0_1 : S4x64x30x30.Slices ![0, 0, 0, 1] S4x64x28x28
  slices_S4x64x30x30_S4x64x28x28_0_0_0_2 : S4x64x30x30.Slices ![0, 0, 0, 2] S4x64x28x28
  slices_S4x64x30x30_S4x64x28x28_0_0_1_0 : S4x64x30x30.Slices ![0, 0, 1, 0] S4x64x28x28
  slices_S4x64x30x30_S4x64x28x28_0_0_1_1 : S4x64x30x30.Slices ![0, 0, 1, 1] S4x64x28x28
  slices_S4x64x30x30_S4x64x28x28_0_0_1_2 : S4x64x30x30.Slices ![0, 0, 1, 2] S4x64x28x28
  slices_S4x64x30x30_S4x64x28x28_0_0_2_0 : S4x64x30x30.Slices ![0, 0, 2, 0] S4x64x28x28
  slices_S4x64x30x30_S4x64x28x28_0_0_2_1 : S4x64x30x30.Slices ![0, 0, 2, 1] S4x64x28x28
  slices_S4x64x30x30_S4x64x28x28_0_0_2_2 : S4x64x30x30.Slices ![0, 0, 2, 2] S4x64x28x28
  bcast_S4x64x28x28_S4x64x1x28x28_0_1_3_4 : S4x64x28x28.BroadcastsInDim S4x64x1x28x28 (![0, 1, 3, 4] : Fin 4 → Fin S4x64x1x28x28.rank)
  concatenates_S4x64x1x28x28_S4x64x1x28x28_S4x64x1x28x28_S4x64x1x28x28_S4x64x1x28x28_S4x64x1x28x28_S4x64x1x28x28_S4x64x1x28x28_S4x64x1x28x28_S4x64x9x28x28_d2 : Shape.Concatenates [S4x64x1x28x28, S4x64x1x28x28, S4x64x1x28x28, S4x64x1x28x28, S4x64x1x28x28, S4x64x1x28x28, S4x64x1x28x28, S4x64x1x28x28, S4x64x1x28x28] S4x64x9x28x28 2
  shapeCasts_S4x64x9x28x28_S4x576x784 : S4x64x9x28x28.ShapeCasts S4x576x784
  transposes_S4x576x784_S576x784x4_1_2_0 : S4x576x784.Transposes [1, 2, 0] S576x784x4
  shapeCasts_S576x784x4_S576x3136 : S576x784x4.ShapeCasts S576x3136
  shapeCasts_S64x64x3x3_S64x576 : S64x64x3x3.ShapeCasts S64x576
  bcast_S64x576_S64x576x1_0_1 : S64x576.BroadcastsInDim S64x576x1 (![0, 1] : Fin 2 → Fin S64x576x1.rank)
  bcast_S576x3136_S1x576x3136_1_2 : S576x3136.BroadcastsInDim S1x576x3136 (![1, 2] : Fin 2 → Fin S1x576x3136.rank)
  bcast_S64x576x1_S64x576x3136_0_1_2 : S64x576x1.BroadcastsInDim S64x576x3136 (![0, 1, 2] : Fin 3 → Fin S64x576x3136.rank)
  bcast_S1x576x3136_S64x576x3136_0_1_2 : S1x576x3136.BroadcastsInDim S64x576x3136 (![0, 1, 2] : Fin 3 → Fin S64x576x3136.rank)
  reducesTo_S64x576x3136_S64x3136_d1 : S64x576x3136.ReducesTo [1] S64x3136
  shapeCasts_S64x3136_S64x28x28x4 : S64x3136.ShapeCasts S64x28x28x4
  transposes_S64x28x28x4_S4x64x28x28_3_0_1_2 : S64x28x28x4.Transposes [3, 0, 1, 2] S4x64x28x28

variable [Facts₀]

class Facts : Prop extends Facts₀ where

variable [Facts]
-- ==== Proof.AdderRunBits.lean ====
/-
  The frame run of the L1-distance ("adder") convolution program.

  @main is: the host prologue (the two min/max fake quantizations, the 3×3 unfolding of the padded activations
  into columns, the transposed weight matrix, the zero padding of the columns from 3136 to 3200), ONE kernel
  region over 5 grid points, and a host epilogue (drop the padding, reshape, transpose).

  At grid point t the kernel body finds the whole 576×64 weight matrix in its first buffer, columns
  640·t … 640·t+639 of the padded 576×3200 column matrix in its second, and overwrites its third (a 64×640
  block of the 64×3200 result) by one store whose value is a pure function of eighteen 64-row slices it
  loads from the first two buffers.  Nothing else is touched, so the region — and with it @main — runs to
  the end without a fault, every array of the pipeline ends at what the stores left, and every other
  buffer ends as the host lines left it; in particular both argument arrays end unchanged.
-/
import proofs.«157956_j71545565217400_2_alg».proof.Proof.Gen.Kernel.Launch
import proofs.«157956_j71545565217400_2_alg».proof.Proof.Gen.Kernel.Skeleton
import proofs.«157956_j71545565217400_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Adder

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host prologue, stretch by stretch, in program order. -/
abbrev prologue : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15]

/-- Core `c`'s buffer contents when the region is entered: the prologue applied to the launch contents. -/
abbrev V0 (c : Dev nD) : Valuation τ sig (Elt F) := StableHlo.after (List.flatten prologue) (fun b => m (c, b))
/-- The same read at a TensorCore reference. -/
abbrev V (c : Dev nD) (b : Ref sig .tc) : Buf (Elt F) ((c : Thread nD τ).loc b) := V0 m c (Proc.devRef .tc b)

theorem prologue_sub : (prologue : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub, hostOps0_15_sub⟩

theorem prologue_fresh : (prologue : List (List (HloOp τ sig (Elt F)))).Forall fun ops => ops.Forall fun op => op.fresh = ∅ := by
  simp only [List.Forall]; repeat' constructor

theorem epilogue_fresh : (hostOps1 : List (HloOp τ sig (Elt F))).Forall fun op => op.fresh = ∅ := by
  simp only [List.Forall]; repeat' constructor

/-- @main is the prologue, the region, the epilogue: it reduces to the region continued by the epilogue. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prologue [hostOps1] prologue_sub prologue_fresh main_chain

/-- The epilogue touches only the pipeline's arrays and the buffers that bypass the region, -/
theorem epilogue_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem epilogue_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp epilogue_fresh) op hop
/-- and writes no array of the pipeline (each line writes its own result buffer). -/
theorem epilogue_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.unary_writes, StableHlo.reshape_writes, Finset.mem_singleton] <;> exact StableHlo.devRef_ne_of_ne (by decide)

/-- The references the prologue writes: none is an argument. -/
theorem V_not_written (c : Dev nD) (r : Ref sig .tc) (hr : r = main_arg0 ∨ r = main_arg1) : V m c r = m ((c : Thread nD τ).loc r) :=
  StableHlo.after_of_forall_not_mem (b := Proc.devRef .tc r) _ _ (List.forall_iff_forall_mem.mp (by
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15,
      List.flatten_cons, List.flatten_nil, List.append_nil, List.cons_append,
      List.nil_append, List.Forall, StableHlo.nullary_writes, StableHlo.unary_writes, StableHlo.binary_writes, StableHlo.reshape_writes, StableHlo.nary_writes, Finset.mem_singleton]
    rcases hr with rfl | rfl
    all_goals repeat' apply And.intro
    all_goals exact StableHlo.devRef_ne_of_ne (by decide)))

theorem V_main_arg0 (c : Dev nD) : V m c main_arg0 = m ((c : Thread nD τ).loc main_arg0) := V_not_written m c _ (.inl rfl)
theorem V_main_arg1 (c : Dev nD) : V m c main_arg1 = m ((c : Thread nD τ).loc main_arg1) := V_not_written m c _ (.inr rfl)

/-- Nor does the epilogue write an argument, and no argument is an array of the pipeline: it ends as launched. -/
theorem W_arg (dats : (p : Fin _) → (c : Dev nD) → Dat τ (Elt F) Unit ℕ (UR sig nD τ) ℕ (cfgs p) c) (c : Dev nD)
    (r : Ref sig .tc) (hr : r = main_arg0 ∨ r = main_arg1) :
    Pipeline.afterTail₀ cfgs dats 0 (V0 m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.cons_append,
        List.nil_append, List.Forall, StableHlo.unary_writes, StableHlo.reshape_writes, Finset.mem_singleton]
      rcases hr with rfl | rfl
      all_goals repeat' apply And.intro
      all_goals exact StableHlo.devRef_ne_of_ne (by decide))),
    Pipeline.withArrays_of_ne _ c (V0 m c) _ r (by rcases hr with rfl | rfl; exacts [(by decide : ∀ w, Pipeline.arrRef spec0 w ≠ main_arg0), (by decide : ∀ w, Pipeline.arrRef spec0 w ≠ main_arg1)])]
  exact V_not_written m c r hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weight window's staging buffer holds the whole weight matrix at every point — fetched at the first point only,
    its index never moves afterwards —, -/
theorem before_w_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and the column window's holds its 640 columns, fetched at every point. -/
theorem before_x_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The c-th 64-row slice of the weight buffer and of the column buffer, and the whole result buffer. -/
abbrev rw0 : Rect S576x64 := Rect.unit (s := S576x64) ![0, 0] S64x64.size inb_S576x64_S64x64_0_0
abbrev rw1 : Rect S576x64 := Rect.unit (s := S576x64) ![64, 0] S64x64.size inb_S576x64_S64x64_64_0
abbrev rw2 : Rect S576x64 := Rect.unit (s := S576x64) ![128, 0] S64x64.size inb_S576x64_S64x64_128_0
abbrev rw3 : Rect S576x64 := Rect.unit (s := S576x64) ![192, 0] S64x64.size inb_S576x64_S64x64_192_0
abbrev rw4 : Rect S576x64 := Rect.unit (s := S576x64) ![256, 0] S64x64.size inb_S576x64_S64x64_256_0
abbrev rw5 : Rect S576x64 := Rect.unit (s := S576x64) ![320, 0] S64x64.size inb_S576x64_S64x64_320_0
abbrev rw6 : Rect S576x64 := Rect.unit (s := S576x64) ![384, 0] S64x64.size inb_S576x64_S64x64_384_0
abbrev rw7 : Rect S576x64 := Rect.unit (s := S576x64) ![448, 0] S64x64.size inb_S576x64_S64x64_448_0
abbrev rw8 : Rect S576x64 := Rect.unit (s := S576x64) ![512, 0] S64x64.size inb_S576x64_S64x64_512_0
abbrev rx0 : Rect S576x640 := Rect.unit (s := S576x640) ![0, 0] S64x640.size inb_S576x640_S64x640_0_0
abbrev rx1 : Rect S576x640 := Rect.unit (s := S576x640) ![64, 0] S64x640.size inb_S576x640_S64x640_64_0
abbrev rx2 : Rect S576x640 := Rect.unit (s := S576x640) ![128, 0] S64x640.size inb_S576x640_S64x640_128_0
abbrev rx3 : Rect S576x640 := Rect.unit (s := S576x640) ![192, 0] S64x640.size inb_S576x640_S64x640_192_0
abbrev rx4 : Rect S576x640 := Rect.unit (s := S576x640) ![256, 0] S64x640.size inb_S576x640_S64x640_256_0
abbrev rx5 : Rect S576x640 := Rect.unit (s := S576x640) ![320, 0] S64x640.size inb_S576x640_S64x640_320_0
abbrev rx6 : Rect S576x640 := Rect.unit (s := S576x640) ![384, 0] S64x640.size inb_S576x640_S64x640_384_0
abbrev rx7 : Rect S576x640 := Rect.unit (s := S576x640) ![448, 0] S64x640.size inb_S576x640_S64x640_448_0
abbrev rx8 : Rect S576x640 := Rect.unit (s := S576x640) ![512, 0] S64x640.size inb_S576x640_S64x640_512_0
abbrev ro : Rect S64x640 := Rect.unit (s := S64x640) ![0, 0] S64x640.size inb_S64x640_S64x640_0_0

/-- The value the body stores, from the weight buffer `w` and the column buffer `x`: the three printed parts'
    payloads composed over the eighteen slices. -/
def stored (w : Vec F S576x64 .f32) (x : Vec F S576x640 .f32) : FVec F S64x640 .f32 :=
  k0_pay1
    (k0_pay4 (k0_pay2 (View.ld w rw0) (View.ld x rx0) (View.ld w rw1) (View.ld x rx1) (View.ld w rw2) (View.ld x rx2))
      (k0_pay3 (View.ld w rw3)) (View.ld x rx3) (View.ld w rw4) (View.ld x rx4) (View.ld w rw5) (View.ld x rx5))
    (k0_pay5 (View.ld w rw6) (View.ld x rx6)) (View.ld w rw7) (View.ld x rx7) (View.ld w rw8) (View.ld x rx8)

/-- What the result buffer holds after the body: its one store, over the whole buffer. -/
def out (w : Vec F S576x64 .f32) (x : Vec F S576x640 .f32) : Vec F S64x640 .f32 :=
  View.canon [⟨ro, stored w x⟩]

theorem out_cover (p0 : Vec F S64x640 .f32) (y : S64x640.Idx) :
    ∃ pc ∈ ([⟨ro, p0⟩] : List (View.Piece (Elt F) S64x640 .f32)), y ∈ pc.1.set :=
  View.cover_of_tiled [⟨ro, p0⟩] S64x640.size (by rfl) y

/-! ## The body's triple -/

set_option maxHeartbeats 4000000 in
/-- The kernel body on whole staging memrefs — the weight buffer at `w`, the column buffer at `x`, the result buffer
    at anything — runs to the continuation holding the two inputs as they were and the result buffer at `out w x`:
    eighteen loads, a load of the result buffer whose value is dropped, and one store over the whole buffer. -/
theorem sound_kernel (c : Dev nD) (E : Set ℕ) (i : grid0.Coords)
    (arg1 : Memref sig .tc .vmem S576x64 .f32) (harg1 : arg1.IsWhole)
    (arg2 : Memref sig .tc .vmem S576x640 .f32) (harg2 : arg2.IsWhole)
    (arg3 : Memref sig .tc .vmem S64x640 .f32) (harg3 : arg3.IsWhole)
    (w : Vec F S576x64 .f32) (x : Vec F S576x640 .f32) (K : PUnit → sProp 𝕄) :
    iprop(owns (c : Thread nD τ) arg1 fullShare w ∗ owns (c : Thread nD τ) arg2 fullShare x ∗ (∃ d, owns (c : Thread nD τ) arg3 fullShare d)
        ∗ (iprop(owns (c : Thread nD τ) arg1 fullShare w ∗ owns (c : Thread nD τ) arg2 fullShare x ∗ owns (c : Thread nD τ) arg3 fullShare (out w x)) -∗ K ⟨⟩))
      ⊢ wp frame (wpE (defs₀ (F := F)) Variants.none c none) E (cc0__adder_kernel i arg1 harg1 arg2 harg2 arg3 harg3) K := by
  simp only [cc0__adder_kernel_eq_skeleton]; unfold cc0__adder_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover _)

/-! ## The pipeline's proof data -/

/-- The arrays as the region finds them; after the body at point `t` each input's buffer at its block and the result's
    at `out` of the two input blocks; the class invariant (the scoped rest and the generator register, untouched);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_w (c : Dev nD) (t : Fin cfg0.N) : (dats m 0 c).after 0 t = iblk m c 0 t := by dsimp only [dats]
theorem after_x (c : Dev nD) (t : Fin cfg0.N) : (dats m 0 c).after 1 t = iblk m c 1 t := by dsimp only [dats]
theorem after_o (c : Dev nD) (t : Fin cfg0.N) : (dats m 0 c).after 2 t = out (iblk m c 0 t) (iblk m c 1 t) := by dsimp only [dats]

theorem before_w (c : Dev nD) (t : Fin cfg0.N) (d) : (dats m 0 c).before 0 t d = iblk m c 0 t :=
  before_w_of m (dats m 0 c) (A_eq m c 0) (after_w m c) t d
theorem before_x (c : Dev nD) (t : Fin cfg0.N) (d) : (dats m 0 c).before 1 t d = iblk m c 1 t :=
  before_x_of m (dats m 0 c) (A_eq m c 1) (after_x m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w, before_x]
  rw [show (dats m 0 c).Φ t.succ = (dats m 0 c).Φ t.castSucc from rfl,
    show (dats m 0 c).owesAt () t.succ = (dats m 0 c).owesAt () t.castSucc from rfl,
    after_w, after_x, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the proof data's write-backs leave and every other unscoped buffer as the epilogue leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := epilogue_sub) (hfresh := epilogue_fresh') (hkeep := epilogue_keeps)
    (hmain := hmain m Variants.none) (hA := A_eq m) (hΦ := fun _ _ => rfl)

/-- The frame: @main runs, and both argument arrays end as launched — neither is an array of the pipeline, and no host
    line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_arg m (dats m) c _ (.inl rfl)),
     ((h c).2 main_arg1 (Pipeline.mem_restRefs_of main_arg1 (by decide) (by decide))).trans (W_arg m (dats m) c _ (.inr rfl))⟩) (run_main m ρ)

end Cert.Kernel.Adder

end
-- ==== Proof.AdderRunIdeal.lean ====
/-
  The frame run of the L1-distance ("adder") convolution program.

  @main is: the host prologue (the two min/max fake quantizations, the 3×3 unfolding of the padded activations
  into columns, the transposed weight matrix, the zero padding of the columns from 3136 to 3200), ONE kernel
  region over 5 grid points, and a host epilogue (drop the padding, reshape, transpose).

  At grid point t the kernel body finds the whole 576×64 weight matrix in its first buffer, columns
  640·t … 640·t+639 of the padded 576×3200 column matrix in its second, and overwrites its third (a 64×640
  block of the 64×3200 result) by one store whose value is a pure function of eighteen 64-row slices it
  loads from the first two buffers.  Nothing else is touched, so the region — and with it @main — runs to
  the end without a fault, every array of the pipeline ends at what the stores left, and every other
  buffer ends as the host lines left it; in particular both argument arrays end unchanged.
-/
import proofs.«157956_j71545565217400_2_alg».proof.Proof.Gen.KernelIdeal.Launch
import proofs.«157956_j71545565217400_2_alg».proof.Proof.Gen.KernelIdeal.Skeleton
import proofs.«157956_j71545565217400_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Adder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host prologue, stretch by stretch, in program order. -/
abbrev prologue : List (List (HloOp τ sig (Elt F))) :=
  [hostOps0, hostOps0_1, hostOps0_2, hostOps0_3, hostOps0_4, hostOps0_5, hostOps0_6, hostOps0_7, hostOps0_8,
   hostOps0_9, hostOps0_10, hostOps0_11, hostOps0_12, hostOps0_13, hostOps0_14, hostOps0_15]

/-- Core `c`'s buffer contents when the region is entered: the prologue applied to the launch contents. -/
abbrev V0 (c : Dev nD) : Valuation τ sig (Elt F) := StableHlo.after (List.flatten prologue) (fun b => m (c, b))
/-- The same read at a TensorCore reference. -/
abbrev V (c : Dev nD) (b : Ref sig .tc) : Buf (Elt F) ((c : Thread nD τ).loc b) := V0 m c (Proc.devRef .tc b)

theorem prologue_sub : (prologue : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub, hostOps0_15_sub⟩

theorem prologue_fresh : (prologue : List (List (HloOp τ sig (Elt F)))).Forall fun ops => ops.Forall fun op => op.fresh = ∅ := by
  simp only [List.Forall]; repeat' constructor

theorem epilogue_fresh : (hostOps1 : List (HloOp τ sig (Elt F))).Forall fun op => op.fresh = ∅ := by
  simp only [List.Forall]; repeat' constructor

/-- @main is the prologue, the region, the epilogue: it reduces to the region continued by the epilogue. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prologue [hostOps1] prologue_sub prologue_fresh main_chain

/-- The epilogue touches only the pipeline's arrays and the buffers that bypass the region, -/
theorem epilogue_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem epilogue_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp epilogue_fresh) op hop
/-- and writes no array of the pipeline (each line writes its own result buffer). -/
theorem epilogue_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals intro w; fin_cases w <;> simp only [StableHlo.unary_writes, StableHlo.reshape_writes, Finset.mem_singleton] <;> exact StableHlo.devRef_ne_of_ne (by decide)

/-- The references the prologue writes: none is an argument. -/
theorem V_not_written (c : Dev nD) (r : Ref sig .tc) (hr : r = main_arg0 ∨ r = main_arg1) : V m c r = m ((c : Thread nD τ).loc r) :=
  StableHlo.after_of_forall_not_mem (b := Proc.devRef .tc r) _ _ (List.forall_iff_forall_mem.mp (by
    simp only [hostOps0, hostOps0_1, hostOps0_2, hostOps0_3, hostOps0_4, hostOps0_5, hostOps0_6, hostOps0_7, hostOps0_8,
      hostOps0_9, hostOps0_10, hostOps0_11, hostOps0_12, hostOps0_13, hostOps0_14, hostOps0_15,
      List.flatten_cons, List.flatten_nil, List.append_nil, List.cons_append,
      List.nil_append, List.Forall, StableHlo.nullary_writes, StableHlo.unary_writes, StableHlo.binary_writes, StableHlo.reshape_writes, StableHlo.nary_writes, Finset.mem_singleton]
    rcases hr with rfl | rfl
    all_goals repeat' apply And.intro
    all_goals exact StableHlo.devRef_ne_of_ne (by decide)))

theorem V_main_arg0 (c : Dev nD) : V m c main_arg0 = m ((c : Thread nD τ).loc main_arg0) := V_not_written m c _ (.inl rfl)
theorem V_main_arg1 (c : Dev nD) : V m c main_arg1 = m ((c : Thread nD τ).loc main_arg1) := V_not_written m c _ (.inr rfl)

/-- Nor does the epilogue write an argument, and no argument is an array of the pipeline: it ends as launched. -/
theorem W_arg (dats : (p : Fin _) → (c : Dev nD) → Dat τ (Elt F) Unit ℕ (UR sig nD τ) ℕ (cfgs p) c) (c : Dev nD)
    (r : Ref sig .tc) (hr : r = main_arg0 ∨ r = main_arg1) :
    Pipeline.afterTail₀ cfgs dats 0 (V0 m) [hostOps1] c r = m ((c : Thread nD τ).loc r) := by
  unfold Pipeline.afterTail₀
  rw [StableHlo.after_of_forall_not_mem (b := Proc.devRef .tc r) _ _ (List.forall_iff_forall_mem.mp (by
      simp only [hostOps1, List.flatten_cons, List.flatten_nil, List.append_nil, List.cons_append,
        List.nil_append, List.Forall, StableHlo.unary_writes, StableHlo.reshape_writes, Finset.mem_singleton]
      rcases hr with rfl | rfl
      all_goals repeat' apply And.intro
      all_goals exact StableHlo.devRef_ne_of_ne (by decide))),
    Pipeline.withArrays_of_ne _ c (V0 m c) _ r (by rcases hr with rfl | rfl; exacts [(by decide : ∀ w, Pipeline.arrRef spec0 w ≠ main_arg0), (by decide : ∀ w, Pipeline.arrRef spec0 w ≠ main_arg1)])]
  exact V_not_written m c r hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The weight window's staging buffer holds the whole weight matrix at every point — fetched at the first point only,
    its index never moves afterwards —, -/
theorem before_w_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and the column window's holds its 640 columns, fetched at every point. -/
theorem before_x_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The c-th 64-row slice of the weight buffer and of the column buffer, and the whole result buffer. -/
abbrev rw0 : Rect S576x64 := Rect.unit (s := S576x64) ![0, 0] S64x64.size inb_S576x64_S64x64_0_0
abbrev rw1 : Rect S576x64 := Rect.unit (s := S576x64) ![64, 0] S64x64.size inb_S576x64_S64x64_64_0
abbrev rw2 : Rect S576x64 := Rect.unit (s := S576x64) ![128, 0] S64x64.size inb_S576x64_S64x64_128_0
abbrev rw3 : Rect S576x64 := Rect.unit (s := S576x64) ![192, 0] S64x64.size inb_S576x64_S64x64_192_0
abbrev rw4 : Rect S576x64 := Rect.unit (s := S576x64) ![256, 0] S64x64.size inb_S576x64_S64x64_256_0
abbrev rw5 : Rect S576x64 := Rect.unit (s := S576x64) ![320, 0] S64x64.size inb_S576x64_S64x64_320_0
abbrev rw6 : Rect S576x64 := Rect.unit (s := S576x64) ![384, 0] S64x64.size inb_S576x64_S64x64_384_0
abbrev rw7 : Rect S576x64 := Rect.unit (s := S576x64) ![448, 0] S64x64.size inb_S576x64_S64x64_448_0
abbrev rw8 : Rect S576x64 := Rect.unit (s := S576x64) ![512, 0] S64x64.size inb_S576x64_S64x64_512_0
abbrev rx0 : Rect S576x640 := Rect.unit (s := S576x640) ![0, 0] S64x640.size inb_S576x640_S64x640_0_0
abbrev rx1 : Rect S576x640 := Rect.unit (s := S576x640) ![64, 0] S64x640.size inb_S576x640_S64x640_64_0
abbrev rx2 : Rect S576x640 := Rect.unit (s := S576x640) ![128, 0] S64x640.size inb_S576x640_S64x640_128_0
abbrev rx3 : Rect S576x640 := Rect.unit (s := S576x640) ![192, 0] S64x640.size inb_S576x640_S64x640_192_0
abbrev rx4 : Rect S576x640 := Rect.unit (s := S576x640) ![256, 0] S64x640.size inb_S576x640_S64x640_256_0
abbrev rx5 : Rect S576x640 := Rect.unit (s := S576x640) ![320, 0] S64x640.size inb_S576x640_S64x640_320_0
abbrev rx6 : Rect S576x640 := Rect.unit (s := S576x640) ![384, 0] S64x640.size inb_S576x640_S64x640_384_0
abbrev rx7 : Rect S576x640 := Rect.unit (s := S576x640) ![448, 0] S64x640.size inb_S576x640_S64x640_448_0
abbrev rx8 : Rect S576x640 := Rect.unit (s := S576x640) ![512, 0] S64x640.size inb_S576x640_S64x640_512_0
abbrev ro : Rect S64x640 := Rect.unit (s := S64x640) ![0, 0] S64x640.size inb_S64x640_S64x640_0_0

/-- The value the body stores, from the weight buffer `w` and the column buffer `x`: the three printed parts'
    payloads composed over the eighteen slices. -/
def stored (w : Vec F S576x64 .f32) (x : Vec F S576x640 .f32) : FVec F S64x640 .f32 :=
  k0_pay1
    (k0_pay4 (k0_pay2 (View.ld w rw0) (View.ld x rx0) (View.ld w rw1) (View.ld x rx1) (View.ld w rw2) (View.ld x rx2))
      (k0_pay3 (View.ld w rw3)) (View.ld x rx3) (View.ld w rw4) (View.ld x rx4) (View.ld w rw5) (View.ld x rx5))
    (k0_pay5 (View.ld w rw6) (View.ld x rx6)) (View.ld w rw7) (View.ld x rx7) (View.ld w rw8) (View.ld x rx8)

/-- What the result buffer holds after the body: its one store, over the whole buffer. -/
def out (w : Vec F S576x64 .f32) (x : Vec F S576x640 .f32) : Vec F S64x640 .f32 :=
  View.canon [⟨ro, stored w x⟩]

theorem out_cover (p0 : Vec F S64x640 .f32) (y : S64x640.Idx) :
    ∃ pc ∈ ([⟨ro, p0⟩] : List (View.Piece (Elt F) S64x640 .f32)), y ∈ pc.1.set :=
  View.cover_of_tiled [⟨ro, p0⟩] S64x640.size (by rfl) y

/-! ## The body's triple -/

set_option maxHeartbeats 4000000 in
/-- The kernel body on whole staging memrefs — the weight buffer at `w`, the column buffer at `x`, the result buffer
    at anything — runs to the continuation holding the two inputs as they were and the result buffer at `out w x`:
    eighteen loads, a load of the result buffer whose value is dropped, and one store over the whole buffer. -/
theorem sound_kernel (c : Dev nD) (E : Set ℕ) (i : grid0.Coords)
    (arg1 : Memref sig .tc .vmem S576x64 .f32) (harg1 : arg1.IsWhole)
    (arg2 : Memref sig .tc .vmem S576x640 .f32) (harg2 : arg2.IsWhole)
    (arg3 : Memref sig .tc .vmem S64x640 .f32) (harg3 : arg3.IsWhole)
    (w : Vec F S576x64 .f32) (x : Vec F S576x640 .f32) (K : PUnit → sProp 𝕄) :
    iprop(owns (c : Thread nD τ) arg1 fullShare w ∗ owns (c : Thread nD τ) arg2 fullShare x ∗ (∃ d, owns (c : Thread nD τ) arg3 fullShare d)
        ∗ (iprop(owns (c : Thread nD τ) arg1 fullShare w ∗ owns (c : Thread nD τ) arg2 fullShare x ∗ owns (c : Thread nD τ) arg3 fullShare (out w x)) -∗ K ⟨⟩))
      ⊢ wp frame (wpE (defs₀ (F := F)) Variants.none c none) E (cc0__adder_kernel i arg1 harg1 arg2 harg2 arg3 harg3) K := by
  simp only [cc0__adder_kernel_eq_skeleton]; unfold cc0__adder_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (out_cover _)

/-! ## The pipeline's proof data -/

/-- The arrays as the region finds them; after the body at point `t` each input's buffer at its block and the result's
    at `out` of the two input blocks; the class invariant (the scoped rest and the generator register, untouched);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_w (c : Dev nD) (t : Fin cfg0.N) : (dats m 0 c).after 0 t = iblk m c 0 t := by dsimp only [dats]
theorem after_x (c : Dev nD) (t : Fin cfg0.N) : (dats m 0 c).after 1 t = iblk m c 1 t := by dsimp only [dats]
theorem after_o (c : Dev nD) (t : Fin cfg0.N) : (dats m 0 c).after 2 t = out (iblk m c 0 t) (iblk m c 1 t) := by dsimp only [dats]

theorem before_w (c : Dev nD) (t : Fin cfg0.N) (d) : (dats m 0 c).before 0 t d = iblk m c 0 t :=
  before_w_of m (dats m 0 c) (A_eq m c 0) (after_w m c) t d
theorem before_x (c : Dev nD) (t : Fin cfg0.N) (d) : (dats m 0 c).before 1 t d = iblk m c 1 t :=
  before_x_of m (dats m 0 c) (A_eq m c 1) (after_x m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w, before_x]
  rw [show (dats m 0 c).Φ t.succ = (dats m 0 c).Φ t.castSucc from rfl,
    show (dats m 0 c).owesAt () t.succ = (dats m 0 c).owesAt () t.castSucc from rfl,
    after_w, after_x, after_o]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the proof data's write-backs leave and every other unscoped buffer as the epilogue leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := epilogue_sub) (hfresh := epilogue_fresh') (hkeep := epilogue_keeps)
    (hmain := hmain m Variants.none) (hA := A_eq m) (hΦ := fun _ _ => rfl)

/-- The frame: @main runs, and both argument arrays end as launched — neither is an array of the pipeline, and no host
    line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_arg m (dats m) c _ (.inl rfl)),
     ((h c).2 main_arg1 (Pipeline.mem_restRefs_of main_arg1 (by decide) (by decide))).trans (W_arg m (dats m) c _ (.inr rfl))⟩) (run_main m ρ)

end Cert.KernelIdeal.Adder

end
-- ==== Proof.AdderChunk.lean ====
/-
  One 64-row chunk of the L1 distance, and the body's three payloads, read at an entry.

  A chunk takes 64 rows of the weight buffer (a 64×64 piece, row j holding the weights of reduction index j for the
  64 output channels) and the same 64 rows of the column buffer (64×640), spreads the first along a new last axis
  and the second along a new middle axis to 64×64×640, subtracts, takes absolute values and adds up over the first
  axis.  At output channel f and column l this is  Σ_j |w[j, f] − x[j, l]|  over the chunk's 64 rows.
  The body's payloads add such chunk sums onto an accumulator that starts at zero, and the last one subtracts the
  accumulator from zero.
-/
import proofs.«157956_j71545565217400_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.AdderValue

open Cert.KernelIdeal Cert.KernelIdeal.Gen
open Idealize.ShloMosaic Idealize.ShloMosaic.TcCoe Idealize.SL.Sem Idealize.ShloMosaic.ValueIdx

/-- The chunk's sum at channel `f` and column `l`: the absolute differences of its 64 rows, added. -/
def chunkTerm (wv : FVec Ideal S64x64 .f32) (xv : FVec Ideal S64x640 .f32) (f : Fin 64) (l : Fin 640) : EReal :=
  ∑ j : Fin 64, max (wv (ix2 j f) - xv (ix2 j l)) (-(wv (ix2 j f) - xv (ix2 j l)))

/-- The weights spread along a new last axis: entry (j, f, l) is w[j, f]. -/
theorem spread_w (wv : FVec Ideal S64x64 .f32) (j f : Fin 64) (l : Fin 640) :
    broadcastTo S64x64x640 (shapeCast S64x64x1 wv shapeCasts_S64x64_S64x64x1) broadcasts_S64x64x1_S64x64x640 (ix3 j f l)
      = wv (ix2 j f) := by
  refine (broadcastTo_apply _ broadcasts_S64x64x1_S64x64x640 (ix3 j f l) (ix3 j f (⟨0, Nat.one_pos⟩ : Fin 1)) (fun a => ?_)).trans ?_
  · match a with
    | ⟨0, _⟩ => show j.val = if (64 : Nat) = 1 then 0 else j.val; rw [if_neg (by decide)]
    | ⟨1, _⟩ => show f.val = if (64 : Nat) = 1 then 0 else f.val; rw [if_neg (by decide)]
    | ⟨2, _⟩ => show 0 = if (1 : Nat) = 1 then 0 else l.val; rw [if_pos rfl]
  · refine shapeCast_apply wv shapeCasts_S64x64_S64x64x1 _ (ix2 j f) ?_
    rewrite [Shape.rowMajor_val_two, Shape.rowMajor_val_three]
    show j.val * 64 + f.val = (j.val * 64 + f.val) * 1 + 0
    omega

/-- The columns spread along a new middle axis: entry (j, f, l) is x[j, l]. -/
theorem spread_x (xv : FVec Ideal S64x640 .f32) (j f : Fin 64) (l : Fin 640) :
    broadcastTo S64x64x640 (shapeCast S64x1x640 xv shapeCasts_S64x640_S64x1x640) broadcasts_S64x1x640_S64x64x640 (ix3 j f l)
      = xv (ix2 j l) := by
  refine (broadcastTo_apply _ broadcasts_S64x1x640_S64x64x640 (ix3 j f l) (ix3 j (⟨0, Nat.one_pos⟩ : Fin 1) l) (fun a => ?_)).trans ?_
  · match a with
    | ⟨0, _⟩ => show j.val = if (64 : Nat) = 1 then 0 else j.val; rw [if_neg (by decide)]
    | ⟨1, _⟩ => show 0 = if (1 : Nat) = 1 then 0 else f.val; rw [if_pos rfl]
    | ⟨2, _⟩ => show l.val = if (640 : Nat) = 1 then 0 else l.val; rw [if_neg (by decide)]
  · refine shapeCast_apply xv shapeCasts_S64x640_S64x1x640 _ (ix2 j l) ?_
    rewrite [Shape.rowMajor_val_two, Shape.rowMajor_val_three]
    show j.val * 640 + l.val = (j.val * 1 + 0) * 640 + l.val
    omega

/-- The 64×64×640 tensor of absolute differences of a chunk. -/
def absDiff (wv : FVec Ideal S64x64 .f32) (xv : FVec Ideal S64x640 .f32) : FVec Ideal S64x64x640 .f32 :=
  absf (subf (broadcastTo S64x64x640 (shapeCast S64x64x1 wv shapeCasts_S64x64_S64x64x1) broadcasts_S64x64x1_S64x64x640)
    (broadcastTo S64x64x640 (shapeCast S64x1x640 xv shapeCasts_S64x640_S64x1x640) broadcasts_S64x1x640_S64x64x640))

theorem absDiff_apply (wv : FVec Ideal S64x64 .f32) (xv : FVec Ideal S64x640 .f32) (j f : Fin 64) (l : Fin 640) :
    absDiff wv xv (ix3 j f l) = max (wv (ix2 j f) - xv (ix2 j l)) (-(wv (ix2 j f) - xv (ix2 j l))) := by
  show max (_ - _) (-(_ - _)) = _
  rw [spread_w, spread_x]

/-- Adding the tensor up over its first axis gives the chunk's sum. -/
theorem chunk_apply (wv : FVec Ideal S64x64 .f32) (xv : FVec Ideal S64x640 .f32) (f : Fin 64) (l : Fin 640) :
    multiReduction .add [0] S64x640 (absDiff wv xv) 0x00000000#32 reduces_S64x64x640_S64x640 (.inl rfl) rfl (ix2 f l)
      = chunkTerm wv xv f l := by
  refine (Ideal.multiReduction_add_single (absDiff wv xv) 0x00000000#32 reduces_S64x64x640_S64x640 (.inl rfl) rfl (ix2 f l)).trans ?_
  unfold chunkTerm
  refine Finset.sum_congr rfl fun j _ => ?_
  refine Eq.trans ?_ (absDiff_apply wv xv j f l)
  exact congrArg (absDiff wv xv) (funext fun a => Fin.ext (by match a with | ⟨0, _⟩ => rfl | ⟨1, _⟩ => rfl | ⟨2, _⟩ => rfl))

/-- The accumulator's starting value: zero everywhere. -/
theorem acc_zero (f : Fin 64) (l : Fin 640) :
    broadcast S64x640 (Scalar.ofBits (F := Ideal) .f32 0x00000000#32) (ix2 f l) = 0 := Ideal.ofBits_zero_f32

/-- The first part's accumulator: three chunk sums added onto zero. -/
theorem pay2_apply (v1 : Vec Ideal S64x64 .f32) (v3 : Vec Ideal S64x640 .f32) (v13 : Vec Ideal S64x64 .f32) (v15 : Vec Ideal S64x640 .f32)
    (v25 : Vec Ideal S64x64 .f32) (v27 : Vec Ideal S64x640 .f32) (f : Fin 64) (l : Fin 640) :
    k0_pay2 (F := Ideal) v1 v3 v13 v15 v25 v27 (ix2 f l)
      = ((0 + chunkTerm v1 v3 f l) + chunkTerm v13 v15 f l) + chunkTerm v25 v27 f l := by
  unfold k0_pay2
  simp only [shapeCast_self]
  exact congrArg₂ (· + ·) (congrArg₂ (· + ·) (congrArg₂ (· + ·) (acc_zero f l) (chunk_apply v1 v3 f l)) (chunk_apply v13 v15 f l)) (chunk_apply v25 v27 f l)

/-- The fourth slice of the weights, handed from the first part to the second unchanged. -/
theorem pay3_eq (v37 : Vec Ideal S64x64 .f32) : k0_pay3 (F := Ideal) v37 = v37 := by
  unfold k0_pay3; exact shapeCast_self _ _

/-- The second part's accumulator: three more chunk sums added on. -/
theorem pay4_apply (v36 : FVec Ideal S64x640 .f32) (v38 : FVec Ideal S64x64 .f32) (v39 : Vec Ideal S64x640 .f32)
    (v49 : Vec Ideal S64x64 .f32) (v51 : Vec Ideal S64x640 .f32) (v61 : Vec Ideal S64x64 .f32) (v63 : Vec Ideal S64x640 .f32) (f : Fin 64) (l : Fin 640) :
    k0_pay4 (F := Ideal) v36 v38 v39 v49 v51 v61 v63 (ix2 f l)
      = ((v36 (ix2 f l) + chunkTerm v38 v39 f l) + chunkTerm v49 v51 f l) + chunkTerm v61 v63 f l := by
  unfold k0_pay4
  simp only [shapeCast_self]
  exact congrArg₂ (· + ·) (congrArg₂ (· + ·) (congrArg₂ (· + ·) rfl (chunk_apply v38 v39 f l)) (chunk_apply v49 v51 f l)) (chunk_apply v61 v63 f l)

/-- The seventh chunk's tensor of absolute differences, computed in the second part and added up in the root. -/
theorem pay5_eq (v73 : Vec Ideal S64x64 .f32) (v75 : Vec Ideal S64x640 .f32) : k0_pay5 (F := Ideal) v73 v75 = absDiff v73 v75 := by
  unfold k0_pay5
  simp only [shapeCast_self]
  rfl

/-- The stored value: zero minus the accumulator after its last three chunk sums. -/
theorem pay1_apply (v72 : FVec Ideal S64x640 .f32) (v73 : Vec Ideal S64x64 .f32) (v75 : Vec Ideal S64x640 .f32)
    (v85 : Vec Ideal S64x64 .f32) (v87 : Vec Ideal S64x640 .f32) (v97 : Vec Ideal S64x64 .f32) (v99 : Vec Ideal S64x640 .f32) (f : Fin 64) (l : Fin 640) :
    k0_pay1 (F := Ideal) v72 (absDiff v73 v75) v85 v87 v97 v99 (ix2 f l)
      = 0 - (((v72 (ix2 f l) + chunkTerm v73 v75 f l) + chunkTerm v85 v87 f l) + chunkTerm v97 v99 f l) := by
  unfold k0_pay1
  simp only [shapeCast_self]
  exact congrArg₂ (· - ·) (acc_zero f l)
    (congrArg₂ (· + ·) (congrArg₂ (· + ·) (congrArg₂ (· + ·) rfl (chunk_apply v73 v75 f l)) (chunk_apply v85 v87 f l)) (chunk_apply v97 v99 f l))

end Cert.KernelIdeal.AdderValue

end
-- ==== Proof.LibChunkSum.lean ====
/-
  A finite sum taken chunk by chunk.

  The first `n * B` numbers are `n` consecutive chunks of `B` consecutive numbers, position `j` of chunk `c` being
  the number `c * B + j`; in a commutative monoid a sum over all of them is the sum over the chunks of each chunk's
  sum.  And a sum over nine terms is the nine added one after the other onto zero, from the left — the shape an
  accumulator that starts at zero and takes nine partial sums in turn ends with.
-/
import Mathlib.Algebra.BigOperators.Fin
import Mathlib.Logic.Equiv.Fin.Basic

namespace Cert.ChunkSum

variable {M : Type*} [AddCommMonoid M]

/-- The sum over `Fin (n * B)` is the sum over the `n` chunks of the sum over each chunk's `B` positions. -/
theorem sum_fin_chunks (n B : ℕ) (G : Fin (n * B) → M) :
    ∑ k : Fin (n * B), G k
      = ∑ c : Fin n, ∑ j : Fin B, G ⟨c.val * B + j.val, by
          have hc := c.isLt; have hj := j.isLt
          have h1 : c.val * B + j.val < (c.val + 1) * B := by rw [Nat.succ_mul]; omega
          exact lt_of_lt_of_le h1 (Nat.mul_le_mul_right B hc)⟩ := by
  rw [← Equiv.sum_comp finProdFinEquiv G, Fintype.sum_prod_type]
  refine Finset.sum_congr rfl fun c _ => Finset.sum_congr rfl fun j _ => congrArg G (Fin.ext ?_)
  show j.val + B * c.val = c.val * B + j.val
  rw [Nat.mul_comm, Nat.add_comm]

/-- Nine terms added one after the other onto zero, from the left, are their sum. -/
theorem sum_fin_nine (s : Fin 9 → M) :
    ∑ c : Fin 9, s c = ((((((((0 + s 0) + s 1) + s 2) + s 3) + s 4) + s 5) + s 6) + s 7) + s 8 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

end Cert.ChunkSum
-- ==== Proof.AdderStored.lean ====
/-
  The value the kernel body stores, entry by entry: the negated L1 distance.

  With the whole 576×64 weight buffer `w` and a 576×640 block `x` of columns in its two input buffers, the body's
  store at output channel f and column l is
      0 − (((0 + T₀) + T₁) + … + T₈),   T_c = Σ_{j<64} |w[64c + j, f] − x[64c + j, l]|,
  the nine 64-row chunk sums added one after the other onto a zero accumulator.  The nine chunks are the 576 rows,
  so this is  −Σ_{k<576} |w[k, f] − x[k, l]|: on the extended reals addition is commutative and associative and zero
  is neutral, and that is all the regrouping uses (no finiteness of the entries is needed).
-/
import proofs.«157956_j71545565217400_2_alg».proof.Proof.AdderRunIdeal
import proofs.«157956_j71545565217400_2_alg».proof.Proof.AdderChunk
import proofs.«157956_j71545565217400_2_alg».proof.Proof.LibChunkSum

noncomputable section

namespace Cert.KernelIdeal.AdderValue

open Cert.KernelIdeal Cert.KernelIdeal.Gen Cert.KernelIdeal.Adder
open Idealize.ShloMosaic Idealize.ShloMosaic.TcCoe Idealize.SL.Sem Idealize.ShloMosaic.ValueIdx

/-- The negated L1 distance of two 576-vectors of extended reals. -/
def negL1 (a b : Fin 576 → EReal) : EReal := -(∑ k : Fin 576, max (a k - b k) (-(a k - b k)))

/-- Rows `o … o + 63` of the two buffers as a chunk: its sum is the sum of the absolute differences of those rows. -/
theorem chunk_rows (o : ℕ) (ho : o + 64 ≤ 576)
    (inbw : ∀ a, (![o, 0] : Fin 2 → Nat) a + S64x64.size a ≤ S576x64.size a)
    (inbx : ∀ a, (![o, 0] : Fin 2 → Nat) a + S64x640.size a ≤ S576x640.size a)
    (w : Vec Ideal S576x64 .f32) (x : Vec Ideal S576x640 .f32) (f : Fin 64) (l : Fin 640) :
    chunkTerm (View.ld w (Rect.unit (s := S576x64) ![o, 0] S64x64.size inbw)) (View.ld x (Rect.unit (s := S576x640) ![o, 0] S64x640.size inbx)) f l
      = ∑ j : Fin 64, max (w (ix2 (⟨o + j.val, by have := j.isLt; omega⟩ : Fin 576) f) - x (ix2 (⟨o + j.val, by have := j.isLt; omega⟩ : Fin 576) l))
          (-(w (ix2 (⟨o + j.val, by have := j.isLt; omega⟩ : Fin 576) f) - x (ix2 (⟨o + j.val, by have := j.isLt; omega⟩ : Fin 576) l))) := by
  unfold chunkTerm
  refine Finset.sum_congr rfl fun j _ => ?_
  have hw : (Rect.unit (s := S576x64) ![o, 0] S64x64.size inbw).idx (ix2 j f) = ix2 (⟨o + j.val, by have := j.isLt; omega⟩ : Fin 576) f :=
    funext fun a => Fin.ext (by
      match a with
      | ⟨0, _⟩ => show o + 1 * j.val = o + j.val; omega
      | ⟨1, _⟩ => show 0 + 1 * f.val = f.val; omega)
  have hx : (Rect.unit (s := S576x640) ![o, 0] S64x640.size inbx).idx (ix2 j l) = ix2 (⟨o + j.val, by have := j.isLt; omega⟩ : Fin 576) l :=
    funext fun a => Fin.ext (by
      match a with
      | ⟨0, _⟩ => show o + 1 * j.val = o + j.val; omega
      | ⟨1, _⟩ => show 0 + 1 * l.val = l.val; omega)
  have ew : View.ld w (Rect.unit (s := S576x64) ![o, 0] S64x64.size inbw) (ix2 j f) = w (ix2 (⟨o + j.val, by have := j.isLt; omega⟩ : Fin 576) f) := congrArg w hw
  have ex : View.ld x (Rect.unit (s := S576x640) ![o, 0] S64x640.size inbx) (ix2 j l) = x (ix2 (⟨o + j.val, by have := j.isLt; omega⟩ : Fin 576) l) := congrArg x hx
  rw [ew, ex]

/-- The stored value as the accumulator's nine steps. -/
theorem stored_steps (w : Vec Ideal S576x64 .f32) (x : Vec Ideal S576x640 .f32) (f : Fin 64) (l : Fin 640) :
    stored w x (ix2 f l)
      = 0 - (((((((((0 + chunkTerm (View.ld w rw0) (View.ld x rx0) f l) + chunkTerm (View.ld w rw1) (View.ld x rx1) f l)
          + chunkTerm (View.ld w rw2) (View.ld x rx2) f l) + chunkTerm (View.ld w rw3) (View.ld x rx3) f l)
          + chunkTerm (View.ld w rw4) (View.ld x rx4) f l) + chunkTerm (View.ld w rw5) (View.ld x rx5) f l)
          + chunkTerm (View.ld w rw6) (View.ld x rx6) f l) + chunkTerm (View.ld w rw7) (View.ld x rx7) f l)
          + chunkTerm (View.ld w rw8) (View.ld x rx8) f l) := by
  unfold stored
  rw [pay5_eq, pay1_apply, pay4_apply, pay2_apply, pay3_eq]

/-- The stored value is the negated L1 distance between column `f` of the weight buffer and column `l` of the block. -/
theorem stored_eq (w : Vec Ideal S576x64 .f32) (x : Vec Ideal S576x640 .f32) (f : Fin 64) (l : Fin 640) :
    stored w x (ix2 f l) = negL1 (fun k => w (ix2 k f)) (fun k => x (ix2 k l)) := by
  rw [stored_steps]
  unfold negL1
  rw [zero_sub]
  refine congrArg Neg.neg ?_
  rw [chunk_rows 0 (by decide), chunk_rows 64 (by decide), chunk_rows 128 (by decide), chunk_rows 192 (by decide), chunk_rows 256 (by decide),
    chunk_rows 320 (by decide), chunk_rows 384 (by decide), chunk_rows 448 (by decide), chunk_rows 512 (by decide)]
  exact ((Cert.ChunkSum.sum_fin_chunks 9 64 (fun k : Fin (9 * 64) => max (w (ix2 (k : Fin 576) f) - x (ix2 (k : Fin 576) l)) (-(w (ix2 (k : Fin 576) f) - x (ix2 (k : Fin 576) l))))).trans
    (Cert.ChunkSum.sum_fin_nine _)).symm

end Cert.KernelIdeal.AdderValue

end
-- ==== Proof.AdderArray.lean ====
/-
  From the blocks to the whole result array.

  At grid point t the pipeline hands the body the whole weight matrix (block (0, 0) of the 576×64 array, the same at
  every point) and columns 640·t … 640·t + 639 of the padded 576×3200 column matrix, and writes the body's 64×640
  result back as columns 640·t … 640·t + 639 of the 64×3200 result array.  The five points' blocks tile that array
  (column l lies in the block of point l / 640), and what point t writes is the restriction to its columns of ONE
  function of the two arrays as the region finds them: entry (f, l) is the negated L1 distance between column f of
  the weight array and column l of the padded column array.  So the result array ends at that function.
-/
import proofs.«157956_j71545565217400_2_alg».proof.Proof.AdderStored

set_option maxRecDepth 16384

noncomputable section

namespace Cert.KernelIdeal.AdderValue

open Cert.KernelIdeal Cert.KernelIdeal.Gen Cert.KernelIdeal.Adder
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The whole result array from the weight array `W` (576×64) and the padded column array `X` (576×3200). -/
def adderArray (W : S576x64.Idx → EReal) (X : S576x3200.Idx → EReal) : S64x3200.Idx → EReal :=
  fun i => negL1 (fun k => W (ix2 k (i 0))) (fun k => X (ix2 k (i 1)))

/-- The printed index maps, decided over the grid: the weight window stays at block (0, 0); the column window and the
    result window are at block (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The weight window's block is the weight array. -/
theorem iblk_w_apply (c : Dev nD) (t : Fin cfg0.N) (y : S576x64.Idx) :
    (iblk m c 0 t : Vec Ideal S576x64 .f32) y = (V m c main_v68 : S576x64.Idx → EReal) y := by
  obtain ⟨e0, e1, -, -, -, -⟩ := idx_facts t
  unfold iblk
  rw [View.read_apply]
  show V m c main_v68 _ = V m c main_v68 _
  congr 1
  funext a
  apply Fin.ext
  match a with
  | ⟨0, _⟩ => show win0_0.index t 0 * 576 + 1 * (y 0).val = (y 0).val; rw [e0]; omega
  | ⟨1, _⟩ => show win0_0.index t 1 * 64 + 1 * (y 1).val = (y 1).val; rw [e1]; omega

/-- The column window's block at point `t` is columns 640·t … of the padded column array. -/
theorem iblk_x_apply (c : Dev nD) (t : Fin cfg0.N) (y : S576x640.Idx) (i : S576x3200.Idx)
    (h0 : (i 0).val = (y 0).val) (h1 : (i 1).val = 640 * t.val + (y 1).val) :
    (iblk m c 1 t : Vec Ideal S576x640 .f32) y = (V m c main_v69 : S576x3200.Idx → EReal) i := by
  obtain ⟨-, -, e0, e1, -, -⟩ := idx_facts t
  unfold iblk
  rw [View.read_apply]
  show V m c main_v69 _ = V m c main_v69 _
  congr 1
  funext a
  apply Fin.ext
  match a with
  | ⟨0, _⟩ => show win0_1.index t 0 * 576 + 1 * (y 0).val = (i 0).val; rw [e0, h0]; omega
  | ⟨1, _⟩ => show win0_1.index t 1 * 640 + 1 * (y 1).val = (i 1).val; rw [e1, h1]; omega

/-- What point `t` writes back is block `t` of `adderArray` of the two arrays as the region finds them. -/
theorem flushed_eq (c : Dev nD) (t : Fin cfg0.N) :
    (dats m 0 c).flushed 2 t = ((cfg0.win 2).blk t).view.read (Elt Ideal) (adderArray (V m c main_v68) (V m c main_v69)) := by
  obtain ⟨-, -, -, -, e0, e1⟩ := idx_facts t
  show (cfg0.win 2).cut (grid0.coords t) ((dats m 0 c).after 2 t) = _
  rw [after_o]
  unfold out
  rw [View.canon_unit_zero hz]
  funext j
  show stored (iblk m c 0 t) (iblk m c 1 t) j = adderArray (V m c main_v68) (V m c main_v69) (((cfg0.win 2).blk t).view.emb j)
  revert j
  show ∀ j : S64x640.Idx, stored (iblk m c 0 t) (iblk m c 1 t) j = adderArray (V m c main_v68) (V m c main_v69) (((cfg0.win 2).blk t).view.emb j)
  intro j
  obtain ⟨f, l, rfl⟩ : ∃ (f : Fin 64) (l : Fin 640), j = ix2 f l := ⟨j 0, j 1, eq_ix2 j⟩
  rw [stored_eq]
  unfold adderArray
  refine congrArg₂ negL1 (funext fun k => ?_) (funext fun k => ?_)
  · refine (iblk_w_apply m c t (ix2 k f)).trans (congrArg (V m c main_v68 : S576x64.Idx → EReal) ?_)
    funext a
    apply Fin.ext
    match a with
    | ⟨0, _⟩ => rfl
    | ⟨1, _⟩ => show f.val = win0_2.index t 0 * 64 + 1 * f.val; rw [e0]; omega
  · refine iblk_x_apply m c t (ix2 k l) _ rfl ?_
    show win0_2.index t 1 * 640 + 1 * l.val = 640 * t.val + l.val
    rw [e1]; omega

/-- An index of the result array is in point `t`'s block iff each coordinate is in the block's range on its axis. -/
theorem mem_blk_o (t : Fin cfg0.N) (i : S64x3200.Idx) :
    i ∈ ((cfg0.win 2).blk t).view.set ↔ ∀ a : Fin 2, win0_2.index t a * S64x640.size a ≤ (i a).val ∧ (i a).val < win0_2.index t a * S64x640.size a + S64x640.size a := by
  show i ∈ ((View.whole main_v70).slice (win0_2.rect t)).set ↔ _
  rw [View.set_slice_whole, Rect.mem_set_unit]
  exact Iff.rfl

/-- The five blocks cover the result array: column `l` is in the block of point `l / 640`. -/
theorem cover_o (i : S64x3200.Idx) : ∃ t : Fin cfg0.N, (cfg0.win 2).flush t = true ∧ i ∈ ((cfg0.win 2).blk t).view.set := by
  have hi0 : (i 0).val < 64 := idx2_lt0 i
  have hi1 : (i 1).val < 3200 := idx2_lt1 i
  have hN : cfg0.N = 5 := N_0
  let t : Fin cfg0.N := ⟨(i 1).val / 640, by rw [hN]; omega⟩
  obtain ⟨-, -, -, -, e0, e1⟩ := idx_facts t
  have ht : t.val = (i 1).val / 640 := rfl
  refine ⟨t, flush0_2 t, ?_⟩
  rw [mem_blk_o]
  intro a
  match a with
  | ⟨0, _⟩ => show win0_2.index t 0 * 64 ≤ (i 0).val ∧ (i 0).val < win0_2.index t 0 * 64 + 64; rw [e0]; omega
  | ⟨1, _⟩ => show win0_2.index t 1 * 640 ≤ (i 1).val ∧ (i 1).val < win0_2.index t 1 * 640 + 640; rw [e1, ht]; omega

/-- The result array after the run. -/
theorem final_o (c : Dev nD) : (dats m 0 c).arrAt 2 cfg0.N = adderArray (V m c main_v68) (V m c main_v69) :=
  (dats m 0 c).arrAt_eq_of_cover 2 (adderArray (V m c main_v68) (V m c main_v69)) (fun t _ => flushed_eq m c t) cover_o

end Cert.KernelIdeal.AdderValue

end
-- ==== Proof.LibHostFold.lean ====
/-
  What a line of host operations leaves in a buffer, computed in one pass — through operations with a family of operands.

  The contents of a buffer after a straight line of host operations is computed by rewriting each operation's result at
  its own result buffer to its function's value of its operands' contents, and at any other buffer to what was there.
  For an operation with a FAMILY of operands (a concatenate of n pieces) the result is the function of
  `fun k => (contents of operand k)`, and the function reads that family at the literal positions 0, 1, …; the pass
  below reads those positions off the literal vector of operand buffers, so that each piece is the contents of a
  literal buffer again.  The pieces sit inside the concatenate's list of (shape, array) pairs, where the pass does not
  rewrite further: each is finished on its own, and `concat9` puts nine finished pieces back together.
-/
import Idealize.ShloMosaic.Lib.StableHlo.Run
import Mathlib.Data.Fin.VecNotation

namespace Cert.HostFold

open Idealize.ShloMosaic Idealize.ShloMosaic.StableHlo Idealize.SL.Sem

/-- The one-pass computation of a buffer's contents after a line of host operations, reading a family of operand
    buffers at its literal positions. -/
macro "after_results_vec" : tactic =>
  `(tactic| (simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne', Matrix.cons_val]))

/-- Nine pieces that agree one by one concatenate to the same array. -/
theorem concat9 {α : Type} {S' S : Shape} (a : Fin S.rank) (a0 a1 a2 a3 a4 a5 a6 a7 a8 b0 b1 b2 b3 b4 b5 b6 b7 b8 : S'.Idx → α)
    (h : Shape.Concatenates [S', S', S', S', S', S', S', S', S'] S a)
    (e0 : a0 = b0) (e1 : a1 = b1) (e2 : a2 = b2) (e3 : a3 = b3) (e4 : a4 = b4) (e5 : a5 = b5) (e6 : a6 = b6) (e7 : a7 = b7) (e8 : a8 = b8) :
    concatenate S a [⟨S', a0⟩, ⟨S', a1⟩, ⟨S', a2⟩, ⟨S', a3⟩, ⟨S', a4⟩, ⟨S', a5⟩, ⟨S', a6⟩, ⟨S', a7⟩, ⟨S', a8⟩] h
      = concatenate S a [⟨S', b0⟩, ⟨S', b1⟩, ⟨S', b2⟩, ⟨S', b3⟩, ⟨S', b4⟩, ⟨S', b5⟩, ⟨S', b6⟩, ⟨S', b7⟩, ⟨S', b8⟩] h := by
  subst e0 e1 e2 e3 e4 e5 e6 e7 e8; rfl

end Cert.HostFold
-- ==== Proof.AdderEntry.lean ====
/-
  The two arrays the kernel region finds, as terms of the program's arguments.

  The host prologue is, line for line, the reference's own opening operations — the two fake quantizations, the padding
  of the activations by one pixel, the nine shifted 28×28 windows stacked into columns, the reshapes and the transpose
  that lay them out as a 576×3136 matrix, the weights reshaped to 64×576 — followed by what only the kernel's program
  does: the weight matrix transposed to 576×64, and the column matrix padded with 64 zero columns to 576×3200.
  So the weight array the region finds is the transpose of the reference's weight matrix, and the column array is the
  reference's column matrix padded on the right with the float value of the integer 0.
-/
import proofs.«157956_j71545565217400_2_alg».proof.Proof.AdderRunIdeal
import proofs.«157956_j71545565217400_2_alg».proof.Proof.RefRead
import proofs.«157956_j71545565217400_2_alg».proof.Proof.LibHostFold

noncomputable section

namespace Cert.KernelIdeal.AdderValue

open Cert.KernelIdeal Cert.KernelIdeal.Gen Cert.KernelIdeal.Adder
open Idealize.ShloMosaic Idealize.ShloMosaic.TcCoe Idealize.SL.Sem Idealize.ShloMosaic.StableHlo
open Cert.HostFold

variable (m : (ℓ : Loc nD τ sig) → Buf (Elt Ideal) ℓ)

set_option maxRecDepth 65536 in
set_option maxHeartbeats 40000000 in
/-- The weight array at the region's entry: the reference's 64×576 weight matrix, transposed. -/
theorem entry_w (c : Dev nD) :
    (V m c main_v68 : S576x64.Idx → EReal)
      = transpose S576x64 [1, 0] (Cert.ReferenceIdeal.Read.val_main_v67 (F := Ideal) (m ((c : Thread nD τ).loc main_arg1)))
          transposes_S64x576_S576x64_1_0 := by
  dsimp only [V, V0]
  simp only [prologue, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15,
    List.flatten_cons, List.flatten_nil, List.append_nil, List.cons_append, List.nil_append]
  after_results_vec
  rfl

set_option maxRecDepth 65536 in
set_option maxHeartbeats 40000000 in
/-- The column array at the region's entry: the reference's 576×3136 column matrix, padded with 64 columns of the float
    value of the integer zero. -/
theorem entry_x (c : Dev nD) :
    (V m c main_v69 : S576x3200.Idx → EReal)
      = pad S576x3200 ![0, 0] ![0, 64] ![0, 0] (Cert.ReferenceIdeal.Read.val_main_v66 (F := Ideal) (m ((c : Thread nD τ).loc main_arg0)))
          (sitofp (F := Ideal) .f32 (constantI S_ 32 0#32)) pads_S576x3136_S576x3200_000_0640 h_S_ := by
  dsimp only [V, V0]
  simp only [prologue, hostOps0, hostOps0_1, hostOps0_2, hostOps0_3, hostOps0_4, hostOps0_5, hostOps0_6, hostOps0_7, hostOps0_8,
    hostOps0_9, hostOps0_10, hostOps0_11, hostOps0_12, hostOps0_13, hostOps0_14, hostOps0_15,
    List.flatten_cons, List.flatten_nil, List.append_nil, List.cons_append, List.nil_append]
  after_results_vec
  -- the nine stacked windows: each piece finished on its own, then put back together
  generalize hM : (concatenate S4x64x9x28x28 2 _ _ : S4x64x9x28x28.Idx → EReal) = M
  have e : M = Cert.ReferenceIdeal.Read.val_main_v63 (F := Ideal) (m ((c : Thread nD τ).loc main_arg0)) := by
    rw [← hM]
    unfold Cert.ReferenceIdeal.Read.val_main_v63
    refine concat9 _ _ _ _ _ _ _ _ _ _ _ _ _ _ _ _ _ _ _ _ ?_ ?_ ?_ ?_ ?_ ?_ ?_ ?_ ?_
    all_goals (after_results_vec; rfl)
  subst e
  rfl

end Cert.KernelIdeal.AdderValue

end
-- ==== Proof.AdderBridge.lean ====
/-
  The kernel's program and the reference compute one function.

  Both end with the same three layout steps — the 64×3136 matrix of results reshaped to 64×28×28×4 and transposed to
  4×64×28×28 —, so it is enough that the two 64×3136 matrices agree.  The reference's entry (f, l) is
      −(0 + Σ_{k<576} |Wq[f, k] − Xc[k, l]|)
  of its quantized weight matrix Wq (64×576) and its column matrix Xc (576×3136).  The kernel's program transposes Wq,
  pads Xc with 64 columns, computes for every one of the 3200 columns the negated L1 distance to every weight column,
  and keeps the first 3136 columns: its entry (f, l) is  −Σ_{k<576} |Wqᵀ[k, f] − pad(Xc)[k, l]|  with l < 3136, where
  the padding is never read.  The two are equal term by term; zero is neutral for addition on the extended reals.
-/
import proofs.«157956_j71545565217400_2_alg».proof.Proof.AdderArray
import proofs.«157956_j71545565217400_2_alg».proof.Proof.AdderEntry
import Idealize.ShloMosaic.Lib.KernelVsHost

set_option maxRecDepth 16384

noncomputable section

namespace Cert.KernelIdeal.AdderValue

open Cert.KernelIdeal Cert.KernelIdeal.Gen Cert.KernelIdeal.Adder
open Idealize.ShloMosaic Idealize.ShloMosaic.TcCoe Idealize.SL.Sem Idealize.ShloMosaic.ValueIdx Idealize.ShloMosaic.StableHlo
open Idealize.ShloMosaic.Pipeline (Dat)
open Cert.ReferenceIdeal.Read

variable (m : (ℓ : Loc nD τ sig) → Buf (Elt Ideal) ℓ) (ρ : Dev nD → PrngReg)

/-- The kernel program's 64×3136 matrix, from the reference's weight matrix `Wq` and column matrix `Xc`: transpose, pad,
    every negated L1 distance, the first 3136 columns. -/
def kernelMatrix (Wq : Cert.ReferenceIdeal.S64x576.Idx → EReal) (Xc : Cert.ReferenceIdeal.S576x3136.Idx → EReal) : S64x3136.Idx → EReal :=
  extractStridedSlice S64x3136 ![0, 0]
    (adderArray (transpose S576x64 [1, 0] Wq transposes_S64x576_S576x64_1_0)
      (pad S576x3200 ![0, 0] ![0, 64] ![0, 0] Xc (sitofp (F := Ideal) .f32 (constantI S_ 32 0#32)) pads_S576x3136_S576x3200_000_0640 h_S_))
    slices_S64x3200_S64x3136_0_0

/-- Entry (f, l) of the kernel program's matrix. -/
theorem kernelMatrix_apply (Wq : Cert.ReferenceIdeal.S64x576.Idx → EReal) (Xc : Cert.ReferenceIdeal.S576x3136.Idx → EReal) (f : Fin 64) (l : Fin 3136) :
    kernelMatrix Wq Xc (ix2 f l) = negL1 (fun k => Wq (ix2 f k)) (fun k => Xc (ix2 k l)) := by
  unfold kernelMatrix
  refine (extractStridedSlice_apply ![0, 0] _ slices_S64x3200_S64x3136_0_0 (ix2 f l) (ix2 f (⟨l.val, by have := l.isLt; omega⟩ : Fin 3200)) (fun a => ?_)).trans ?_
  · match a with
    | ⟨0, _⟩ => show f.val = 0 + f.val; omega
    | ⟨1, _⟩ => show l.val = 0 + l.val; omega
  · unfold adderArray
    refine congrArg₂ negL1 (funext fun k => ?_) (funext fun k => ?_)
    · refine transpose_apply [1, 0] Wq transposes_S64x576_S576x64_1_0 _ (ix2 f k) (fun b => ?_)
      match b with
      | ⟨0, _⟩ => rfl
      | ⟨1, _⟩ => rfl
    · refine pad_apply_of_inside ![0, 0] ![0, 64] ![0, 0] Xc _ pads_S576x3136_S576x3200_000_0640 h_S_ _ (ix2 k l) (fun a => ?_)
      match a with
      | ⟨0, _⟩ => show k.val = 0 + k.val * (0 + 1); omega
      | ⟨1, _⟩ => show l.val = 0 + l.val * (0 + 1); omega

/-- Entry (f, l) of the reference's matrix (its value before the closing reshape and transpose). -/
theorem refMatrix_apply (x0 : (⟨Cert.ReferenceIdeal.S4x64x28x28, .f32⟩ : BufTy).Contents (Elt Ideal))
    (x1 : (⟨Cert.ReferenceIdeal.S64x64x3x3, .f32⟩ : BufTy).Contents (Elt Ideal)) (f : Fin 64) (l : Fin 3136) :
    val_main_v75 (F := Ideal) x0 x1 (ix2 f l)
      = negL1 (fun k => val_main_v67 (F := Ideal) x1 (ix2 f k)) (fun k => val_main_v66 (F := Ideal) x0 (ix2 k l)) := by
  rw [val_main_v75_apply, val_main_v74_apply]
  simp only [val_main_v73_apply, val_main_v72_apply, val_main_v70_apply, val_main_v68_apply, val_main_v71_apply, val_main_v69_apply, val_main_cst_11_apply]
  unfold negL1
  show -(Ideal.ofBits .f32 0x00000000#32 + _) = _
  rw [Ideal.ofBits_zero_f32, zero_add]
  refine congrArg Neg.neg (Finset.sum_congr rfl fun k _ => ?_)
  have e1 : idx_main_v68 (idx_main_v70 (idx_main_v74 (ix2 f l) k)) = ix2 f k :=
    funext fun a => Fin.ext (by match a with | ⟨0, _⟩ => rfl | ⟨1, _⟩ => rfl)
  have e2 : idx_main_v69 (idx_main_v71 (idx_main_v74 (ix2 f l) k)) = ix2 k l :=
    funext fun a => Fin.ext (by match a with | ⟨0, _⟩ => rfl | ⟨1, _⟩ => rfl)
  rw [e1, e2]
  rfl

/-- The two 64×3136 matrices are one. -/
theorem matrix_eq (x0 : (⟨Cert.ReferenceIdeal.S4x64x28x28, .f32⟩ : BufTy).Contents (Elt Ideal))
    (x1 : (⟨Cert.ReferenceIdeal.S64x64x3x3, .f32⟩ : BufTy).Contents (Elt Ideal)) :
    kernelMatrix (val_main_v67 (F := Ideal) x1) (val_main_v66 (F := Ideal) x0) = val_main_v75 (F := Ideal) x0 x1 := by
  funext i
  obtain ⟨f, l, rfl⟩ : ∃ (f : Fin 64) (l : Fin 3136), i = ix2 f l := ⟨i 0, i 1, eq_ix2 i⟩
  rw [kernelMatrix_apply, refMatrix_apply]

/-- What the kernel's program leaves in its result buffer: the closing reshape and transpose of the first 3136 columns
    of the result array. -/
theorem result_tail (c : Dev nD) :
    Pipeline.afterTail₀ cfgs (dats m) 0 (V0 m) [hostOps1] c main_v73
      = transpose S4x64x28x28 [3, 0, 1, 2]
          (shapeCast S64x28x28x4 (extractStridedSlice S64x3136 ![0, 0] ((dats m 0 c).arrAt 2 cfg0.N) slices_S64x3200_S64x3136_0_0) shapeCasts_S64x3136_S64x28x28x4)
          transposes_S64x28x28x4_S4x64x28x28_3_0_1_2 := by
  unfold Pipeline.afterTail₀
  show StableHlo.after hostOps1 _ (Proc.devRef .tc main_v73) = _
  after_results
  rw [Pipeline.withArrays_arr spec0 launch0.win.arr_inj c _ _ 2]
  rfl

/-- The kernel program's result is the reference's result term of the same arguments. -/
theorem result_eq (c : Dev nD) :
    Pipeline.afterTail₀ cfgs (dats m) 0 (V0 m) [hostOps1] c main_v73
      = val_main_v77 (F := Ideal) (m ((c : Thread nD τ).loc main_arg0)) (m ((c : Thread nD τ).loc main_arg1)) := by
  rw [result_tail, final_o, entry_w, entry_x]
  unfold val_main_v77 val_main_v76
  exact congrArg (fun M => transpose S4x64x28x28 [3, 0, 1, 2] (shapeCast S64x28x28x4 M shapeCasts_S64x3136_S64x28x28x4) transposes_S64x28x28x4_S4x64x28x28_3_0_1_2)
    (matrix_eq (m ((c : Thread nD τ).loc main_arg0)) (m ((c : Thread nD τ).loc main_arg1)))

end Cert.KernelIdeal.AdderValue

end
-- ==== Proof.RefRun.lean ====
/-
  The reference's run.

  The reference is a straight line of 103 host operations.  Every weakly fair execution of it terminates, nothing
  faults, each buffer ends at what the operations, applied in order to the launch contents, leave in it — and for the
  result buffer that is the last stage of the reference read one operation at a time (the fake quantizations, the
  unfolding into columns, the broadcast difference, the absolute value, the sum over the 576 reduction indices, the
  negation, the closing reshape and transpose), as a function of the two arguments; the arguments are written by no
  operation.
-/
import proofs.«157956_j71545565217400_2_alg».proof.Proof.RefOps
import proofs.«157956_j71545565217400_2_alg».proof.Proof.RefRead
import proofs.«157956_j71545565217400_2_alg».proof.Proof.LibHostFold

noncomputable section

namespace Cert.ReferenceIdeal.Value

open Cert.ReferenceIdeal Cert.ReferenceIdeal.Gen Idealize.ShloMosaic Idealize.ShloMosaic.TcCoe Idealize.SL.Sem Idealize.ShloMosaic.StableHlo
open Cert.HostFold

variable {F : FTy → Type} [FloatOps F]

set_option maxRecDepth 65536 in
set_option maxHeartbeats 41200000 in
/-- On every device, from any memory with zero counters: every weakly fair execution of the reference's @main terminates
    with the result buffer at the reference's last stage of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77)
        = Cert.ReferenceIdeal.Read.val_main_v77 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v77).trans (by
        after_results_vec
        -- the nine stacked windows: each piece finished on its own, then put back together
        generalize hM : (concatenate S4x64x9x28x28 2 _ _ : S4x64x9x28x28.Idx → Elt F .f32) = M
        have e : M = Cert.ReferenceIdeal.Read.val_main_v63 (F := F) (m ((c.tc : Thread nD τ).loc main_arg0)) := by
          rw [← hM]
          unfold Cert.ReferenceIdeal.Read.val_main_v63
          refine concat9 _ _ _ _ _ _ _ _ _ _ _ _ _ _ _ _ _ _ _ _ ?_ ?_ ?_ ?_ ?_ ?_ ?_ ?_ ?_
          all_goals (after_results_vec; rfl)
        subst e
        rfl),
      (h c main_arg0).trans (by after_results_vec <;> rfl),
      (h c main_arg1).trans (by after_results_vec <;> rfl)⟩)
    (run_seq scopedRefs_eq scopedSems_eq defs main (fun _ => ops) main_eq (fun _ => ops_sub) m ρ)

end Cert.ReferenceIdeal.Value

end
-- ==== Proof.lean ====
/-
  An L1-distance ("adder") convolution, 3×3 with padding 1, over fake-quantized activations and weights:
      out[n, f, h, w] = −Σ_{c, i, j} |Wq[f, c, i, j] − Xq[n, c, h + i − 1, w + j − 1]|.

  Both programs quantize the same way, unfold the padded activations into a 576×3136 column matrix Xc (576 = 64·9
  reduction indices, 3136 = 28·28·4 output positions) and the weights into a 64×576 matrix Wq, and both finish by
  reshaping a 64×3136 matrix of results to 64×28×28×4 and transposing it to 4×64×28×28.  In between the reference
  broadcasts, subtracts, takes absolute values and sums over the 576 reduction indices in one host reduction; the
  kernel's program transposes Wq, pads Xc to 3200 columns, and runs a kernel over five blocks of 640 columns whose
  body adds nine 64-row partial sums onto a zero accumulator and stores zero minus the accumulator, then drops the
  64 padding columns.

  Read over the extended reals the two are the same function of the arguments: the nine partial sums are a
  regrouping of the one sum over 576 indices, zero is neutral, zero minus a value is its negation, and the padding
  columns are computed but never kept.  Commutativity and associativity of addition are all the regrouping uses, so
  the finiteness of the inputs is not needed for the value.

  The frames: each program runs to the end without a fault and leaves both arguments as they were — the kernel's two
  programs by the run of the host prologue, the five-point region and the host epilogue, the reference by its run
  as a straight line of host operations.  The word-level kernel and its idealization are the same text (the ideal
  pass rewrote nothing), so "preserves" has nothing to state.
-/
import proofs.«157956_j71545565217400_2_alg».proof.Defs
import proofs.«157956_j71545565217400_2_alg».proof.Proof.Gen.Kernel
import proofs.«157956_j71545565217400_2_alg».proof.Proof.Gen.KernelIdeal
import proofs.«157956_j71545565217400_2_alg».proof.Proof.Gen.ReferenceIdeal
import proofs.«157956_j71545565217400_2_alg».proof.Proof.Gen.Pre_finite_inputs
import proofs.«157956_j71545565217400_2_alg».proof.Proof.AdderRunBits
import proofs.«157956_j71545565217400_2_alg».proof.Proof.AdderBridge
import proofs.«157956_j71545565217400_2_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel (hKernel := Cert.Kernel.Gen.facts) (hPre_finite_inputs := Cert.Pre_finite_inputs.Gen.facts) :=
  fun m ρ _ => Cert.Kernel.Adder.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Adder.frame m ρ

/-- And the reference: its run as a line of host operations, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, both idealized programs end with the reference's result term of those
    arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v77 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨?_, ?_, ?_⟩) (Cert.KernelIdeal.Adder.run_main (F := Ideal) m ρ)
    · exact ((h c).2 Cert.KernelIdeal.main_v73 (Pipeline.mem_restRefs_of Cert.KernelIdeal.main_v73 (by decide) (by decide))).trans
        (Cert.KernelIdeal.AdderValue.result_eq m c)
    · exact ((h c).2 Cert.KernelIdeal.main_arg0 (Pipeline.mem_restRefs_of Cert.KernelIdeal.main_arg0 (by decide) (by decide))).trans
        (Cert.KernelIdeal.Adder.W_arg m (Cert.KernelIdeal.Adder.dats m) c _ (.inl rfl))
    · exact ((h c).2 Cert.KernelIdeal.main_arg1 (Pipeline.mem_restRefs_of Cert.KernelIdeal.main_arg1 (by decide) (by decide))).trans
        (Cert.KernelIdeal.Adder.W_arg m (Cert.KernelIdeal.Adder.dats m) c _ (.inr rfl))
  · refine (θ_run Cert.ReferenceIdeal.defs _ _).mono (fun _ h c => ⟨?_, (h c).2⟩) (Cert.ReferenceIdeal.Value.run (F := Ideal) m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
